-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x2 : Shape := ⟨2, ![800000, 2]⟩
abbrev S2x128 : Shape := ⟨2, ![2, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x2 : S_.BroadcastsInDim S800000x2 (![] : Fin 0 → Fin S800000x2.rank)
  reducesTo_S800000x2_S_d0_1 : S800000x2.ReducesTo [0, 1] S_
  bcast_S_S2x128 : S_.BroadcastsInDim S2x128 (![] : Fin 0 → Fin S2x128.rank)
  reducesTo_S2x128_S_d0_1 : S2x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  reducesTo_S_S_d : S_.ReducesTo [] S_

variable [Facts]

def fn_part3 {F : FTy → Type} [FloatOps F] (main_arg12 : FVec F S_ .f32) (main_v47 : IVec S_ 1) (main_v50 : IVec S128 1) : IVec S_ 1 :=
  let main_c_19 : IVec S_ 1 := constantI S_ 1 1#1
  let main_v51 : IVec S_ 1 := (fun x v => Host.reduce IntOp.andi x v reducesTo_S128_S_d0 h_S_) main_v50 main_c_19
  let main_v52 : IVec S_ 1 := andi main_v47 main_v51
  let main_v53 : FVec F S_ .f32 := Host.absf main_arg12
  let main_cst_20 : FVec F S_ .f32 := constant S_ .f32 0x7F800000#32
  let main_v54 : IVec S_ 1 := cmpf .olt main_v53 main_cst_20
  let main_c_21 : IVec S_ 1 := constantI S_ 1 1#1
  let main_v55 : IVec S_ 1 := (fun x v => Host.reduce IntOp.andi x v reducesTo_S_S_d h_S_) main_v54 main_c_21
  let main_v56 : IVec S_ 1 := andi main_v52 main_v55
  main_v56

def fn_part2 {F : FTy → Type} [FloatOps F] (main_arg9 : FVec F S128 .f32) (main_arg10 : FVec F S128x128 .f32) (main_arg11 : FVec F S128 .f32) (main_arg12 : FVec F S_ .f32) (main_v32 : IVec S_ 1) (main_v33 : FVec F S2x128 .f32) : IVec S_ 1 :=
  let main_cst_12 : FVec F S_ .f32 := constant S_ .f32 0x7F800000#32
  let main_v34 : FVec F S2x128 .f32 := broadcastInDim S2x128 ![] bcast_S_S2x128 main_cst_12
  let main_v35 : IVec S2x128 1 := cmpf .olt main_v33 main_v34
  let main_c_13 : IVec S_ 1 := constantI S_ 1 1#1
  let main_v36 : IVec S_ 1 := (fun x v => Host.reduce IntOp.andi x v reducesTo_S2x128_S_d0_1 h_S_) main_v35 main_c_13
  let main_v37 : IVec S_ 1 := andi main_v32 main_v36
  let main_v38 : FVec F S128 .f32 := Host.absf main_arg9
  let main_cst_14 : FVec F S_ .f32 := constant S_ .f32 0x7F800000#32
  let main_v39 : FVec F S128 .f32 := broadcastInDim S128 ![] bcast_S_S128 main_cst_14
  let main_v40 : IVec S128 1 := cmpf .olt main_v38 main_v39
  let main_c_15 : IVec S_ 1 := constantI S_ 1 1#1
  let main_v41 : IVec S_ 1 := (fun x v => Host.reduce IntOp.andi x v reducesTo_S128_S_d0 h_S_) main_v40 main_c_15
  let main_v42 : IVec S_ 1 := andi main_v37 main_v41
  let main_v43 : FVec F S128x128 .f32 := Host.absf main_arg10
  let main_cst_16 : FVec F S_ .f32 := constant S_ .f32 0x7F800000#32
  let main_v44 : FVec F S128x128 .f32 := broadcastInDim S128x128 ![] bcast_S_S128x128 main_cst_16
  let main_v45 : IVec S128x128 1 := cmpf .olt main_v43 main_v44
  let main_c_17 : IVec S_ 1 := constantI S_ 1 1#1
  let main_v46 : IVec S_ 1 := (fun x v => Host.reduce IntOp.andi x v reducesTo_S128x128_S_d0_1 h_S_) main_v45 main_c_17
  let main_v47 : IVec S_ 1 := andi main_v42 main_v46
  let main_v48 : FVec F S128 .f32 := Host.absf main_arg11
  let main_cst_18 : FVec F S_ .f32 := constant S_ .f32 0x7F800000#32
  let main_v49 : FVec F S128 .f32 := broadcastInDim S128 ![] bcast_S_S128 main_cst_18
  let main_v50 : IVec S128 1 := cmpf .olt main_v48 main_v49
  fn_part3 (F := F) main_arg12 main_v47 main_v50

def fn_part1 {F : FTy → Type} [FloatOps F] (main_arg5 : FVec F S128x128 .f32) (main_arg6 : FVec F S128 .f32) (main_arg7 : FVec F S_ .f32) (main_arg8 : FVec F S2x128 .f32) (main_arg9 : FVec F S128 .f32) (main_arg10 : FVec F S128x128 .f32) (main_arg11 : FVec F S128 .f32) (main_arg12 : FVec F S_ .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S_ .f32 := Host.absf main_arg7
  let main_cst_10 : FVec F S_ .f32 := constant S_ .f32 0x7F800000#32
  let main_v30 : IVec S_ 1 := cmpf .olt main_v29 main_cst_10
  let main_c_11 : IVec S_ 1 := constantI S_ 1 1#1
  let main_v31 : IVec S_ 1 := (fun x v => Host.reduce IntOp.andi x v reducesTo_S_S_d h_S_) main_v30 main_c_11
  let main_v32 : IVec S_ 1 := andi main_v28 main_v31
  let main_v33 : FVec F S2x128 .f32 := Host.absf main_arg8
  fn_part2 (F := F) main_arg9 main_arg10 main_arg11 main_arg12 main_v32 main_v33

def fn {F : FTy → Type} [FloatOps F] (main_arg0 : FVec F S50000x128 .f32) (main_arg1 : IVec S2x800000 32) (main_arg2 : FVec F S800000x2 .f32) (main_arg3 : FVec F S2x128 .f32) (main_arg4 : FVec F S128 .f32) (main_arg5 : FVec F S128x128 .f32) (main_arg6 : FVec F S128 .f32) (main_arg7 : FVec F S_ .f32) (main_arg8 : FVec F S2x128 .f32) (main_arg9 : FVec F S128 .f32) (main_arg10 : FVec F S128x128 .f32) (main_arg11 : FVec F S128 .f32) (main_arg12 : FVec F S_ .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x2 .f32 := Host.absf main_arg2
  let main_cst_0 : FVec F S_ .f32 := constant S_ .f32 0x7F800000#32
  let main_v5 : FVec F S800000x2 .f32 := broadcastInDim S800000x2 ![] bcast_S_S800000x2 main_cst_0
  let main_v6 : IVec S800000x2 1 := cmpf .olt main_v4 main_v5
  let main_c_1 : IVec S_ 1 := constantI S_ 1 1#1
  let main_v7 : IVec S_ 1 := (fun x v => Host.reduce IntOp.andi x v reducesTo_S800000x2_S_d0_1 h_S_) main_v6 main_c_1
  let main_v8 : IVec S_ 1 := andi main_v3 main_v7
  let main_v9 : FVec F S2x128 .f32 := Host.absf main_arg3
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x800000 : Shape := ⟨2, ![2, 800000]⟩
abbrev S800000x2 : Shape := ⟨2, ![800000, 2]⟩
abbrev S2x128 : Shape := ⟨2, ![2, 128]⟩
abbrev S128 : Shape := ⟨1, ![128]⟩
abbrev S128x128 : Shape := ⟨2, ![128, 128]⟩
abbrev S_ : Shape := ⟨0, ![]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S1x128 : Shape := ⟨2, ![1, 128]⟩
abbrev S6400x2 : Shape := ⟨2, ![6400, 2]⟩
abbrev S6400x128 : Shape := ⟨2, ![6400, 128]⟩
abbrev S5000x128 : Shape := ⟨2, ![5000, 128]⟩

abbrev nBuf : Space → Nat
  | .hbm => 61
  | .vmem => 28
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x2, .f32⟩
  | .hbm, ⟨3, _⟩ => ⟨S2x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S2x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S_, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x128, .f32⟩
  | .hbm, ⟨26, _⟩ => ⟨S1x128, .f32⟩
  | .hbm, ⟨27, _⟩ => ⟨S800000x128, .f32⟩
  | .hbm, ⟨28, _⟩ => ⟨S_, .f32⟩
  | .hbm, ⟨29, _⟩ => ⟨S50000x128, .f32⟩
  | .hbm, ⟨30, _⟩ => ⟨S800000x1, .i32⟩
  | .hbm, ⟨31, _⟩ => ⟨S50000x128, .f32⟩
  | .hbm, ⟨32, _⟩ => ⟨S_, .f32⟩
  | .hbm, ⟨33, _⟩ => ⟨S_, .f32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S800000x128, .f32⟩
  | .hbm, ⟨48, _⟩ => ⟨S1x128, .f32⟩
  | .hbm, ⟨49, _⟩ => ⟨S800000x128, .f32⟩
  | .hbm, ⟨50, _⟩ => ⟨S_, .f32⟩
  | .hbm, ⟨51, _⟩ => ⟨S50000x128, .f32⟩
  | .hbm, ⟨52, _⟩ => ⟨S800000x1, .i32⟩
  | .hbm, ⟨53, _⟩ => ⟨S50000x128, .f32⟩
  | .hbm, ⟨54, _⟩ => ⟨S_, .f32⟩
  | .hbm, ⟨55, _⟩ => ⟨S_, .f32⟩
  | .hbm, ⟨56, _⟩ => ⟨S50000x128, .f32⟩
  | .hbm, ⟨57, _⟩ => ⟨S50000x128, .f32⟩
  | .hbm, ⟨58, _⟩ => ⟨S50000x128, .f32⟩
  | .hbm, ⟨59, _⟩ => ⟨S1x128, .f32⟩
  | .hbm, ⟨60, _⟩ => ⟨S50000x128, .f32⟩
  | .local _ .vmem, ⟨0, _⟩ => ⟨S6400x2, .f32⟩
  | .local _ .vmem, ⟨1, _⟩ => ⟨S6400x2, .f32⟩
  | .local _ .vmem, ⟨2, _⟩ => ⟨S6400x128, .f32⟩
  | .local _ .vmem, ⟨3, _⟩ => ⟨S6400x128, .f32⟩
  | .local _ .vmem, ⟨4, _⟩ => ⟨S2x128, .f32⟩
  | .local _ .vmem, ⟨5, _⟩ => ⟨S1x128, .f32⟩
  | .local _ .vmem, ⟨6, _⟩ => ⟨S6400x128, .f32⟩
  | .local _ .vmem, ⟨7, _⟩ => ⟨S6400x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S6400x2, .f32⟩
  | .local _ .vmem, ⟨15, _⟩ => ⟨S6400x2, .f32⟩
  | .local _ .vmem, ⟨16, _⟩ => ⟨S6400x128, .f32⟩
  | .local _ .vmem, ⟨17, _⟩ => ⟨S6400x128, .f32⟩
  | .local _ .vmem, ⟨18, _⟩ => ⟨S2x128, .f32⟩
  | .local _ .vmem, ⟨19, _⟩ => ⟨S1x128, .f32⟩
  | .local _ .vmem, ⟨20, _⟩ => ⟨S6400x128, .f32⟩
  | .local _ .vmem, ⟨21, _⟩ => ⟨S6400x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_1 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_2 : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem4_0 : DmaSem sig := 20
abbrev cc2_sem4_1 : DmaSem sig := 21
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem3_1 : DmaSem sig := 27

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S2x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S6400x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  shapeCasts_S128_S1x128 : S128.ShapeCasts S1x128
  inb_S6400x2_S6400x2_0_0 : ∀ a, (![0, 0] : Fin 2 → Nat) a + S6400x2.size a ≤ S6400x2.size a
  h_S6400x2 : 0 < S6400x2.numel
  bitsLt_bf16_f32 : FTy.bits .bf16 < FTy.bits .f32
  inb_S2x128_S2x128_0_0 : ∀ a, (![0, 0] : Fin 2 → Nat) a + S2x128.size a ≤ S2x128.size a
  h_S2x128 : 0 < S2x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6400x128 : S1x128.Broadcasts S6400x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S6400x2_S2x128_S6400x128_1_0_0_1_n_n_wf : DotDims.WF S6400x2 S2x128 S6400x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x2.size a ≤ S800000x2.size a
  hwx0_0 : ∀ i : grid0.Coords, EltTy.bits .f32 = 32 ∨ (Rect.block (s := S800000x2) S6400x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x128.size a ≤ S800000x128.size a
  hwx0_1 : ∀ i : grid0.Coords, EltTy.bits .f32 = 32 ∨ (Rect.block (s := S800000x128) S6400x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2x128.size a ≤ S2x128.size a
  hwx0_2 : ∀ i : grid0.Coords, EltTy.bits .f32 = 32 ∨ (Rect.block (s := S2x128) S2x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x128.size a ≤ S800000x128.size a
  hwx0_4 : ∀ i : grid0.Coords, EltTy.bits .f32 = 32 ∨ (Rect.block (s := S800000x128) S6400x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x2.size a ≤ S800000x2.size a
  hwx2_0 : ∀ i : grid2.Coords, EltTy.bits .f32 = 32 ∨ (Rect.block (s := S800000x2) S6400x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x128.size a ≤ S800000x128.size a
  hwx2_1 : ∀ i : grid2.Coords, EltTy.bits .f32 = 32 ∨ (Rect.block (s := S800000x128) S6400x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2x128.size a ≤ S2x128.size a
  hwx2_2 : ∀ i : grid2.Coords, EltTy.bits .f32 = 32 ∨ (Rect.block (s := S2x128) S2x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S6400x128.size a ≤ S800000x128.size a
  hwx2_4 : ∀ i : grid2.Coords, EltTy.bits .f32 = 32 ∨ (Rect.block (s := S800000x128) S6400x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S50000x128.size a
  hwx3_3 : ∀ i : grid3.Coords, EltTy.bits .f32 = 32 ∨ (Rect.block (s := S50000x128) S5000x128.size (cc3_transform_3 i) (hinb3_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S6400x2_S2x128_S6400x128_1_0_0_1_n_n : DotDims S6400x2 S2x128 S6400x128 where
  lhsContracting := [1]
  rhsContracting := [0]
  lhsNonContracting := [0]
  rhsNonContracting := [1]
  lhsBatch := []
  rhsBatch := []
  wf := dot_S6400x2_S2x128_S6400x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg2) S6400x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S6400x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S6400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v19) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v21) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S6400x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S6400x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S2x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v30) S6400x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v37) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg10) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v38) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v39) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x2 : Shape := ⟨2, ![800000, 2]⟩
abbrev S2x128 : Shape := ⟨2, ![2, 128]⟩
abbrev S128 : Shape := ⟨1, ![128]⟩
abbrev S128x128 : Shape := ⟨2, ![128, 128]⟩
abbrev S_ : Shape := ⟨0, ![]⟩
abbrev S1x800000 : Shape := ⟨2, ![1, 800000]⟩
abbrev S800000 : Shape := ⟨1, ![800000]⟩
abbrev S800000x128 : Shape := ⟨2, ![800000, 128]⟩
abbrev S1x128 : Shape := ⟨2, ![1, 128]⟩
abbrev S800000x1 : Shape := ⟨2, ![800000, 1]⟩

abbrev nBuf : Space → Nat
  | .hbm => 83
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x2, .f32⟩
  | .hbm, ⟨3, _⟩ => ⟨S2x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S2x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S_, .f32⟩
  | .hbm, ⟨13, _⟩ => ⟨S1x800000, .i32⟩
  | .hbm, ⟨14, _⟩ => ⟨S800000, .i32⟩
  | .hbm, ⟨15, _⟩ => ⟨S1x800000, .i32⟩
  | .hbm, ⟨16, _⟩ => ⟨S800000, .i32⟩
  | .hbm, ⟨17, _⟩ => ⟨S800000x128, .f32⟩
  | .hbm, ⟨18, _⟩ => ⟨S1x128, .f32⟩
  | .hbm, ⟨19, _⟩ => ⟨S800000x128, .f32⟩
  | .hbm, ⟨20, _⟩ => ⟨S800000x128, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S800000x128, .f32⟩
  | .hbm, ⟨31, _⟩ => ⟨S_, .f32⟩
  | .hbm, ⟨32, _⟩ => ⟨S800000x128, .f32⟩
  | .hbm, ⟨33, _⟩ => ⟨S800000x128, .f32⟩
  | .hbm, ⟨34, _⟩ => ⟨S_, .f32⟩
  | .hbm, ⟨35, _⟩ => ⟨S50000x128, .f32⟩
  | .hbm, ⟨36, _⟩ => ⟨S800000x1, .i32⟩
  | .hbm, ⟨37, _⟩ => ⟨S50000x128, .f32⟩
  | .hbm, ⟨38, _⟩ => ⟨S_, .f32⟩
  | .hbm, ⟨39, _⟩ => ⟨S_, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S800000x128, .f32⟩
  | .hbm, ⟨51, _⟩ => ⟨S1x128, .f32⟩
  | .hbm, ⟨52, _⟩ => ⟨S800000x128, .f32⟩
  | .hbm, ⟨53, _⟩ => ⟨S800000x128, .f32⟩
  | .hbm, ⟨54, _⟩ => ⟨S_, .i32⟩
  | .hbm, ⟨55, _⟩ => ⟨S800000, .i32⟩
  | .hbm, ⟨56, _⟩ => ⟨S800000, .i1⟩
  | .hbm, ⟨57, _⟩ => ⟨S_, .i32⟩
  | .hbm, ⟨58, _⟩ => ⟨S800000, .i32⟩
  | .hbm, ⟨59, _⟩ => ⟨S800000, .i32⟩
  | .hbm, ⟨60, _⟩ => ⟨S800000, .i32⟩
  | .hbm, ⟨61, _⟩ => ⟨S800000x1, .i32⟩
  | .hbm, ⟨62, _⟩ => ⟨S800000x128, .f32⟩
  | .hbm, ⟨63, _⟩ => ⟨S800000x128, .f32⟩
  | .hbm, ⟨64, _⟩ => ⟨S_, .f32⟩
  | .hbm, ⟨65, _⟩ => ⟨S800000x128, .f32⟩
  | .hbm, ⟨66, _⟩ => ⟨S800000x128, .f32⟩
  | .hbm, ⟨67, _⟩ => ⟨S_, .f32⟩
  | .hbm, ⟨68, _⟩ => ⟨S50000x128, .f32⟩
  | .hbm, ⟨69, _⟩ => ⟨S800000x1, .i32⟩
  | .hbm, ⟨70, _⟩ => ⟨S50000x128, .f32⟩
  | .hbm, ⟨71, _⟩ => ⟨S_, .f32⟩
  | .hbm, ⟨72, _⟩ => ⟨S_, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_0 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_call0_cst : Ref sig .tc := ⟨.hbm, 31, rfl⟩
abbrev main_call0_v0 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_call1_cst : Ref sig .tc := ⟨.hbm, 47, rfl⟩
abbrev main_call1_v0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_c_2 : Ref sig .tc := ⟨.hbm, 54, rfl⟩
abbrev main_v33 : Ref sig .tc := ⟨.hbm, 55, rfl⟩
abbrev main_v34 : Ref sig .tc := ⟨.hbm, 56, rfl⟩
abbrev main_c_3 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_call2_cst : Ref sig .tc := ⟨.hbm, 64, rfl⟩
abbrev main_call2_v0 : Ref sig .tc := ⟨.hbm, 65, rfl⟩
abbrev main_v41 : Ref sig .tc := ⟨.hbm, 66, rfl⟩
abbrev main_cst_4 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_5 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call3_cst : Ref sig .tc := ⟨.hbm, 80, rfl⟩
abbrev main_call3_v0 : Ref sig .tc := ⟨.hbm, 81, rfl⟩
abbrev main_v53 : Ref sig .tc := ⟨.hbm, 82, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  dot_S800000x2_S2x128_S800000x128_1_0_0_1_n_n_wf : DotDims.WF S800000x2 S2x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def dot_S800000x2_S2x128_S800000x128_1_0_0_1_n_n : DotDims S800000x2 S2x128 S800000x128 where
  lhsContracting := [1]
  rhsContracting := [0]
  lhsNonContracting := [0]
  rhsNonContracting := [1]
  lhsBatch := []
  rhsBatch := []
  wf := dot_S800000x2_S2x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KernelRun.lean ====
/-
  The kernel program's run with every buffer's final contents named.

  The program runs as its eight segments — four stretches of host operations, each followed by a kernel region — from
  the launch memory; every weakly fair execution terminates, and every buffer of the TensorCore that is not a staging
  buffer ends at the contents the segments' fold leaves there.
-/
import proofs.«134544_j80719615361505_1_alg».proof.Proof.Gen.KernelIdeal.Frame

set_option maxRecDepth 16384

noncomputable section

namespace Cert.Gine.Kernel

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates with each buffer outside the staging buffers at the fold's
    final contents. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

end Cert.Gine.Kernel

end
-- ==== Proof.LibRowOps.lean ====
/-
  Two-dimensional vector operations read at one index, on the extended reals.

  A kernel body that projects, normalises and contracts rows is a composition of a few operations on
  [a, b] vectors.  Each lemma below reads one of them at the index (r, c), with both coordinates explicit:
  a matrix product into a zero accumulator is the sum over the shared axis; a sum or a maximum along the
  second axis is the sum or the fold of `max` over that row; a length-a vector viewed as an [a, 1] column, the
  column repeated along a second axis, and a transpose only move coordinates.
-/
import Idealize.ShloMosaic.PureOps.Ideal.Laws
import Idealize.ShloMosaic.Lib.ValueIdx
import Idealize.ShloMosaic.Lib.Pipeline.Value

noncomputable section

namespace Cert.RowOps

open Idealize.ShloMosaic Idealize.ShloMosaic.ValueIdx

/-! ## A plain matrix product -/

/-- The dimension numbers of a plain `[M, K] × [K, N]` product: contract the left operand's second axis with the
    right operand's first, no batch axis. -/
structure IsPlain {M K N : Nat} (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

section Plain

variable {M K N : Nat} {d : DotDims ⟨2, ![M, K]⟩ ⟨2, ![K, N]⟩ ⟨2, ![M, N]⟩}

private theorem val_congr {n : Nat} {s : Fin n → Nat} (j : (i : Fin n) → Fin (s i)) :
    ∀ (p q : Nat) (hp : p < n) (hq : q < n), p = q → (j ⟨p, hp⟩).val = (j ⟨q, hq⟩).val :=
  fun p q hp hq h => by subst h; rfl

theorem contr_rank (hd : IsPlain d) : d.contr.rank = 1 := by
  rw [d.rank_contr, hd.lc]; rfl

theorem contr_size (hd : IsPlain d) : d.contr.size ⟨0, by rw [contr_rank hd]; exact Nat.one_pos⟩ = K := by
  rw [d.size_contr 0 (by rw [hd.lc]; exact Nat.one_pos)]
  simp only [hd.lc, List.getElem_cons_zero]
  rfl

/-- The left operand's row coordinate is the result's row coordinate. -/
theorem lhsIdx_row (hd : IsPlain d) (j : (⟨2, ![M, N]⟩ : Shape).Idx) (k : d.contr.Idx) :
    (d.lhsIdx j k 0).val = (j 0).val := by
  unfold DotDims.lhsIdx
  rw [dif_neg (by rw [hd.lb]; exact List.not_mem_nil), dif_pos (by rw [hd.ln]; exact List.mem_singleton.mpr rfl)]
  simp only [Fin.val_cast]
  exact val_congr j _ _ _ _ (by simp [hd.lb, hd.ln])

/-- The right operand's column coordinate is the result's column coordinate. -/
theorem rhsIdx_col (hd : IsPlain d) (j : (⟨2, ![M, N]⟩ : Shape).Idx) (k : d.contr.Idx) :
    (d.rhsIdx j k 1).val = (j 1).val := by
  unfold DotDims.rhsIdx
  rw [dif_neg (by rw [hd.rb]; exact List.not_mem_nil), dif_pos (by rw [hd.rn]; exact List.mem_singleton.mpr rfl)]
  simp only [Fin.val_cast]
  exact val_congr j _ _ _ _ (by simp [hd.lb, hd.ln, hd.rn])

/-- A plain matrix product into a zero accumulator, at (r, c): the sum over the shared axis of the products. -/
theorem matmul_zero_apply (hd : IsPlain d) {φ₁ φ₂ : FTy} (prec : Option ContractPrecision)
    (lhs : FVec Ideal ⟨2, ![M, K]⟩ φ₁) (rhs : FVec Ideal ⟨2, ![K, N]⟩ φ₂) (r : Fin M) (c : Fin N) :
    FloatOps.matmul d prec lhs rhs (constant ⟨2, ![M, N]⟩ .f32 0x00000000#32) (ix2 r c)
      = ∑ k : Fin K, lhs (ix2 r k) * rhs (ix2 k c) := by
  rw [Ideal.matmul_constant_zero_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Plain

/-! ## Reductions along the second axis -/

section Rows

variable {a b : Nat} {φ : FTy}

/-- The index over row `r` with second coordinate `k`. -/
theorem lift_row (h : (⟨2, ![a, b]⟩ : Shape).Reduces [1] ⟨1, ![a]⟩) (r : Fin a) (k : Fin b) :
    h.lift (ix1 r) k = ix2 r k :=
  funext fun c => Fin.ext (by
    show h.liftVal (ix1 r) k.val c = (ix2 r k c).val
    unfold Shape.Reduces.liftVal
    match c with
    | ⟨0, _⟩ => rfl
    | ⟨1, _⟩ => rfl)

/-- A sum along the second axis, at row `r`: the sum of that row. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the second axis, at row `r`: the fold of `max` over that row from the starting word's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max _ · _) (funext fun k => congrArg src (lift_row h r k))

end Rows

/-! ## Moving coordinates -/

section Layout

variable {α : Type} {a b : Nat}

/-- A length-`a` vector viewed as an `[a, 1]` column reads, at (i, u), the vector at i. -/
theorem column_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- An `[a, 1]` column repeated along a second axis reads, at (i, j), the column at (i, 0). -/
theorem spread_apply (x : (⟨2, ![a, 1]⟩ : Shape).Idx → α) (h : (⟨2, ![a, 1]⟩ : Shape).Broadcasts ⟨2, ![a, b]⟩)
    (i : Fin a) (j : Fin b) : broadcastTo ⟨2, ![a, b]⟩ x h (ix2 i j) = x (ix2 i (0 : Fin 1)) :=
  broadcastTo_apply x h _ _ (fun c => by
    match c with
    | ⟨0, _⟩ =>
      show i.val = if a = 1 then 0 else i.val
      split
      · next h1 => have := i.isLt; omega
      · rfl
    | ⟨1, _⟩ => show 0 = if (1 : Nat) = 1 then 0 else j.val; rw [if_pos rfl])

/-- A transposed `[a, b]` vector reads, at (p, q), the vector at (q, p). -/
theorem swap_apply (x : (⟨2, ![a, b]⟩ : Shape).Idx → α) (h : (⟨2, ![a, b]⟩ : Shape).Transposes [1, 0] ⟨2, ![b, a]⟩)
    (p : Fin b) (q : Fin a) : transpose ⟨2, ![b, a]⟩ [1, 0] x h (ix2 p q) = x (ix2 q p) :=
  transpose_apply [1, 0] x h _ _ (fun c => by
    match c with
    | ⟨0, _⟩ => rfl
    | ⟨1, _⟩ => rfl)

end Layout

end Cert.RowOps

end
-- ==== Proof.LibDense.lean ====
/-
  A dense layer read at one index, on the extended reals.

  A dense layer of a network multiplies an [M, K] array of rows by a [K, N] weight, adds a length-N bias to
  every row, and clips at zero.  Written over whole arrays (the host's `dot_general`, `broadcast_in_dim`,
  `maximum`) or over one block of rows (a `matmul` into a zero accumulator, a bias viewed as one row and
  repeated, a maximum with a splat zero), the entry at row r and column c is the same expression of row r of
  the input, column c of the weight and entry c of the bias.  Each lemma below reads one such spelling at
  (r, c).  The zero the maximum is taken with is kept as the value of the all-zero word.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«134544_j80719615361505_1_alg».proof.Proof.LibRowOps

noncomputable section

namespace Cert.Dense

open Idealize.ShloMosaic Idealize.ShloMosaic.ValueIdx Cert.RowOps

/-- The value of the all-zero f32 word. -/
abbrev z : EReal := Ideal.ofBits .f32 0x00000000#32

/-! ## The host's matrix product -/

section Product

variable {M K N : Nat} {d : DotDims ⟨2, ![M, K]⟩ ⟨2, ![K, N]⟩ ⟨2, ![M, N]⟩}

/-- The host's plain matrix product at (r, c): the sum over the shared axis of the products. -/
theorem hostDot_apply (hd : IsPlain d) {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral d prec sched lhs rhs (ix2 r c) = ∑ k : Fin K, lhs (ix2 r k) * rhs (ix2 k c) := by
  rw [Ideal.dotGeneral_apply,
    ← Equiv.sum_comp (contrEquiv1 d K (contr_rank hd) (contr_size hd)).symm]
  refine Finset.sum_congr rfl fun k _ => ?_
  have hk := contrEquiv1_symm_val d K (contr_rank hd) (contr_size hd) k
  have el : d.lhsIdx (ix2 r c) ((contrEquiv1 d K (contr_rank hd) (contr_size hd)).symm k) = ix2 r k :=
    funext fun a => Fin.ext (by
      match a with
      | ⟨0, _⟩ => exact lhsIdx_row hd _ _
      | ⟨1, _⟩ => exact (d.lhsIdx_val_of_single hd.lc _ _).trans hk)
  have er : d.rhsIdx (ix2 r c) ((contrEquiv1 d K (contr_rank hd) (contr_size hd)).symm k) = ix2 k c :=
    funext fun a => Fin.ext (by
      match a with
      | ⟨0, _⟩ => exact (d.rhsIdx_val_of_single hd.rc _ _).trans hk
      | ⟨1, _⟩ => exact rhsIdx_col hd _ _)
  rw [el, er]

end Product

/-! ## A bias added to every row -/

section Bias

variable {α : Type} {a b : Nat}

/-- A length-b vector viewed as one [1, b] row and repeated over a rows reads, at (p, c), the vector at c. -/
theorem rowBias_apply (v : (⟨1, ![b]⟩ : Shape).Idx → α) (hs : (⟨1, ![b]⟩ : Shape).ShapeCasts ⟨2, ![1, b]⟩)
    (hb : (⟨2, ![1, b]⟩ : Shape).Broadcasts ⟨2, ![a, b]⟩) (p : Fin a) (c : Fin b) :
    broadcastTo ⟨2, ![a, b]⟩ (shapeCast ⟨2, ![1, b]⟩ v hs) hb (ix2 p c) = v (ix1 c) := by
  rw [broadcastTo_1b_ab_apply]
  exact shapeCast_apply v hs _ _ (by
    rw [Shape.rowMajor_val_one, Shape.rowMajor_val_two]
    show c.val = 0 * b + c.val
    omega)

/-- The host's spelling: the vector broadcast to [1, b] along the second axis, then to [a, b]; at (p, c) the vector at c. -/
theorem hostRowBias_apply (v : (⟨1, ![b]⟩ : Shape).Idx → α)
    (h1 : (⟨1, ![b]⟩ : Shape).BroadcastsInDim ⟨2, ![1, b]⟩ ![1])
    (h2 : (⟨2, ![1, b]⟩ : Shape).BroadcastsInDim ⟨2, ![a, b]⟩ ![0, 1]) (p : Fin a) (c : Fin b) :
    broadcastInDim ⟨2, ![a, b]⟩ ![0, 1] h2 (broadcastInDim ⟨2, ![1, b]⟩ ![1] h1 v) (ix2 p c) = v (ix1 c) := by
  rw [broadcastInDim_apply ![0, 1] h2 _ (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)]
  exact broadcastInDim_apply ![1] h1 v (ix2 (0 : Fin 1) c) (ix1 c) (fun ax => by
    match ax with
    | ⟨0, _⟩ =>
      show c.val = if b = 1 then 0 else c.val
      split
      · have := c.isLt; omega
      · rfl)

end Bias

/-! ## The four shapes of a layer, over whole arrays (the host's spelling) -/

section Host

variable {M K N : Nat} {d : DotDims ⟨2, ![M, K]⟩ ⟨2, ![K, N]⟩ ⟨2, ![M, N]⟩}

/-- Rows times weight plus bias, clipped at zero. -/
theorem hostEncode_apply (hd : IsPlain d) (X : FVec Ideal ⟨2, ![M, K]⟩ .f32) (W : FVec Ideal ⟨2, ![K, N]⟩ .f32)
    (B : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) (r : Fin M) (c : Fin N) :
    maximumf (addf (Host.dotGeneral d none X W) (broadcastInDim ⟨2, ![M, N]⟩ ![0, 1] h2 (broadcastInDim ⟨2, ![1, N]⟩ ![1] h1 B)))
        (broadcastInDim ⟨2, ![M, N]⟩ ![] h0 (constant (F := Ideal) ⟨0, ![]⟩ .f32 0x00000000#32)) (ix2 r c)
      = max ((∑ k : Fin K, X (ix2 r k) * W (ix2 k c)) + B (ix1 c)) z := by
  rw [maximumf_apply, addf_apply, hostRowBias_apply, broadcastInDim_scalar_apply, constant_apply]
  exact congrArg (fun s => max (s + B (ix1 c)) z) (hostDot_apply hd none .single X W r c)

/-- Input plus bias clipped at zero, at one index. -/
theorem hostActivate_apply (X : FVec Ideal ⟨2, ![M, K]⟩ .f32) (B : FVec Ideal ⟨1, ![K]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (k : Fin K) :
    maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32)) (ix2 r k)
      = max (X (ix2 r k) + B (ix1 k)) z := by
  rw [maximumf_apply, addf_apply, hostRowBias_apply, broadcastInDim_scalar_apply, constant_apply]

/-- Input plus bias clipped at zero, times weight. -/
theorem hostLayer_apply (hd : IsPlain d) (X : FVec Ideal ⟨2, ![M, K]⟩ .f32) (B : FVec Ideal ⟨1, ![K]⟩ .f32)
    (W : FVec Ideal ⟨2, ![K, N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![]) (r : Fin M) (c : Fin N) :
    Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W (ix2 r c)
      = ∑ k : Fin K, max (X (ix2 r k) + B (ix1 k)) z * W (ix2 k c) := by
  refine (hostDot_apply hd none .single _ W r c).trans (Finset.sum_congr rfl fun k _ => ?_)
  rw [hostActivate_apply]

/-- Input plus bias clipped at zero, times weight, plus a second bias. -/
theorem hostDecode_apply (hd : IsPlain d) (X : FVec Ideal ⟨2, ![M, K]⟩ .f32) (B : FVec Ideal ⟨1, ![K]⟩ .f32)
    (W : FVec Ideal ⟨2, ![K, N]⟩ .f32) (B2 : FVec Ideal ⟨1, ![N]⟩ .f32)
    (h1 : (⟨1, ![K]⟩ : Shape).BroadcastsInDim ⟨2, ![1, K]⟩ ![1])
    (h2 : (⟨2, ![1, K]⟩ : Shape).BroadcastsInDim ⟨2, ![M, K]⟩ ![0, 1])
    (h0 : (⟨0, ![]⟩ : Shape).BroadcastsInDim ⟨2, ![M, K]⟩ ![])
    (g1 : (⟨1, ![N]⟩ : Shape).BroadcastsInDim ⟨2, ![1, N]⟩ ![1])
    (g2 : (⟨2, ![1, N]⟩ : Shape).BroadcastsInDim ⟨2, ![M, N]⟩ ![0, 1]) (r : Fin M) (c : Fin N) :
    addf (Host.dotGeneral d none (maximumf (addf X (broadcastInDim ⟨2, ![M, K]⟩ ![0, 1] h2 (broadcastInDim ⟨2, ![1, K]⟩ ![1] h1 B)))
        (broadcastInDim ⟨2, ![M, K]⟩ ![] h0 (constant (F := Ideal) ⟨0, ![]⟩ .f32 0x00000000#32))) W)
        (broadcastInDim ⟨2, ![M, N]⟩ ![0, 1] g2 (broadcastInDim ⟨2, ![1, N]⟩ ![1] g1 B2)) (ix2 r c)
      = (∑ k : Fin K, max (X (ix2 r k) + B (ix1 k)) z * W (ix2 k c)) + B2 (ix1 c) := by
  rw [addf_apply, hostRowBias_apply, hostLayer_apply hd]

end Host

/-! ## The same four shapes over one block of rows (the kernel's spelling) -/

section Block

variable {M K N : Nat} {d : DotDims ⟨2, ![M, K]⟩ ⟨2, ![K, N]⟩ ⟨2, ![M, N]⟩}

/-- Rows times weight plus bias, clipped at zero. -/
theorem blockEncode_apply (hd : IsPlain d) (x : FVec Ideal ⟨2, ![M, K]⟩ .f32) (w : FVec Ideal ⟨2, ![K, N]⟩ .f32)
    (b : FVec Ideal ⟨1, ![N]⟩ .f32)
    (hs : (⟨1, ![N]⟩ : Shape).ShapeCasts ⟨2, ![1, N]⟩) (hb : (⟨2, ![1, N]⟩ : Shape).Broadcasts ⟨2, ![M, N]⟩)
    (r : Fin M) (c : Fin N) :
    maximumf (addf (matmul d none x w (constant ⟨2, ![M, N]⟩ .f32 0x00000000#32))
        (broadcastTo ⟨2, ![M, N]⟩ (shapeCast ⟨2, ![1, N]⟩ b hs) hb))
        (broadcast ⟨2, ![M, N]⟩ (Scalar.ofBits (F := Ideal) .f32 0x00000000#32)) (ix2 r c)
      = max ((∑ k : Fin K, x (ix2 r k) * w (ix2 k c)) + b (ix1 c)) z := by
  rw [maximumf_apply, addf_apply, rowBias_apply, broadcast_apply]
  exact congrArg (fun s => max (s + b (ix1 c)) z) (matmul_zero_apply hd none x w r c)

/-- Input plus bias clipped at zero, at one index. -/
theorem blockActivate_apply (x : FVec Ideal ⟨2, ![M, K]⟩ .f32) (b : FVec Ideal ⟨1, ![K]⟩ .f32)
    (hs : (⟨1, ![K]⟩ : Shape).ShapeCasts ⟨2, ![1, K]⟩) (hb : (⟨2, ![1, K]⟩ : Shape).Broadcasts ⟨2, ![M, K]⟩)
    (r : Fin M) (k : Fin K) :
    maximumf (addf x (broadcastTo ⟨2, ![M, K]⟩ (shapeCast ⟨2, ![1, K]⟩ b hs) hb))
        (broadcast ⟨2, ![M, K]⟩ (Scalar.ofBits (F := Ideal) .f32 0x00000000#32)) (ix2 r k)
      = max (x (ix2 r k) + b (ix1 k)) z := by
  rw [maximumf_apply, addf_apply, rowBias_apply, broadcast_apply]
  rfl

/-- Input plus bias clipped at zero, times weight. -/
theorem blockLayer_apply (hd : IsPlain d) (x : FVec Ideal ⟨2, ![M, K]⟩ .f32) (b : FVec Ideal ⟨1, ![K]⟩ .f32)
    (w : FVec Ideal ⟨2, ![K, N]⟩ .f32)
    (hs : (⟨1, ![K]⟩ : Shape).ShapeCasts ⟨2, ![1, K]⟩) (hb : (⟨2, ![1, K]⟩ : Shape).Broadcasts ⟨2, ![M, K]⟩)
    (r : Fin M) (c : Fin N) :
    matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32) (ix2 r c)
      = ∑ k : Fin K, max (x (ix2 r k) + b (ix1 k)) z * w (ix2 k c) := by
  refine (matmul_zero_apply hd none _ w r c).trans (Finset.sum_congr rfl fun k _ => ?_)
  rw [blockActivate_apply]

/-- Input plus bias clipped at zero, times weight, plus a second bias. -/
theorem blockDecode_apply (hd : IsPlain d) (x : FVec Ideal ⟨2, ![M, K]⟩ .f32) (b : FVec Ideal ⟨1, ![K]⟩ .f32)
    (w : FVec Ideal ⟨2, ![K, N]⟩ .f32) (b2 : FVec Ideal ⟨1, ![N]⟩ .f32)
    (hs : (⟨1, ![K]⟩ : Shape).ShapeCasts ⟨2, ![1, K]⟩) (hb : (⟨2, ![1, K]⟩ : Shape).Broadcasts ⟨2, ![M, K]⟩)
    (gs : (⟨1, ![N]⟩ : Shape).ShapeCasts ⟨2, ![1, N]⟩) (gb : (⟨2, ![1, N]⟩ : Shape).Broadcasts ⟨2, ![M, N]⟩)
    (r : Fin M) (c : Fin N) :
    addf (matmul d none (maximumf (addf x (broadcastTo ⟨2, ![M, K]⟩ (shapeCast ⟨2, ![1, K]⟩ b hs) hb))
        (broadcast ⟨2, ![M, K]⟩ (Scalar.ofBits (F := Ideal) .f32 0x00000000#32))) w
        (constant ⟨2, ![M, N]⟩ .f32 0x00000000#32))
        (broadcastTo ⟨2, ![M, N]⟩ (shapeCast ⟨2, ![1, N]⟩ b2 gs) gb) (ix2 r c)
      = (∑ k : Fin K, max (x (ix2 r k) + b (ix1 k)) z * w (ix2 k c)) + b2 (ix1 c) := by
  rw [addf_apply, rowBias_apply, blockLayer_apply hd]

end Block

end Cert.Dense

end
-- ==== Proof.LibGraphLayers.lean ====
/-
  Layers of a message-passing network read at one index, on the extended reals.

  An edge layer adds to each gathered row its edge features times a weight and a bias, and clips at zero; a node
  layer adds two arrays, and passes the sum through two dense layers, each followed by the exponential linear
  unit; a readout passes pooled rows through a dense layer clipped at zero and a second dense layer.  Each is written
  twice below: over whole arrays in the host's spelling (`dot_general`, a one-row bias repeated over the rows, a
  comparison and a select), and over one block of rows in a kernel's spelling (a `matmul` into a zero accumulator, the
  bias row repeated by a vector broadcast, `exp` followed by a subtraction of one).  Read at row r and column c, the two
  spellings are the same expression of row r of the inputs, the weights and the bias rows.

  The exponential linear unit is x where x > 0 and exp x − 1 elsewhere.  The host computes the second branch as
  1 · expm1 of x with its positive entries replaced by zero; on the extended reals expm1 y is exp y − 1 and the
  word of 1.0 is the number one, so the two spellings agree at every x, the infinities included.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«134544_j80719615361505_1_alg».proof.Proof.LibRowOps
import proofs.«134544_j80719615361505_1_alg».proof.Proof.LibDense

noncomputable section

namespace Cert.GraphLayers

open Idealize.ShloMosaic Idealize.ShloMosaic.ValueIdx Cert.RowOps Cert.Dense

/-- The value of the f32 word of 1.0. -/
abbrev one : EReal := Ideal.ofBits .f32 0x3F800000#32

/-! ## The exponential linear unit -/

/-- x where x > 0, exp x − 1 elsewhere (the subtraction spelled with the word of 1.0). -/
def elu (a : EReal) : EReal := Scalar.select (Ideal.cmp .ogt a z) a (Ideal.exp a - one)

/-- The host's spelling: the second branch is 1 · expm1 of a with a positive a replaced by zero. -/
def eluHost (a : EReal) : EReal :=
  Scalar.select (Ideal.cmp .ogt a z) a (one * (Ideal.exp (Scalar.select (Ideal.cmp .ogt a z) z a) - 1))

theorem eluHost_eq (a : EReal) : eluHost a = elu a := by
  unfold eluHost elu
  rcases BitVec.eq_zero_or_eq_one (Ideal.cmp .ogt a z) with h | h
  · rw [h, select_zero, select_zero, select_zero]
    show Ideal.ofBits .f32 0x3F800000#32 * (Ideal.exp a - 1) = Ideal.exp a - Ideal.ofBits .f32 0x3F800000#32
    rw [Ideal.ofBits_one_f32, one_mul]
  · rw [h, select_one, select_one]

/-- The host's exponential linear unit of a whole array. -/
def eluArr {S : Shape} (h0 : (⟨0, ![]⟩ : Shape).BroadcastsInDim S ![]) (y : FVec Ideal S .f32) : FVec Ideal S .f32 :=
  select (cmpf .ogt y (broadcastInDim S ![] h0 (constant (F := Ideal) ⟨0, ![]⟩ .f32 0x00000000#32))) y
    (mulf (broadcastInDim S ![] h0 (constant (F := Ideal) ⟨0, ![]⟩ .f32 0x3F800000#32))
      (Host.expm1 (select (cmpf .ogt y (broadcastInDim S ![] h0 (constant (F := Ideal) ⟨0, ![]⟩ .f32 0x00000000#32)))
        (broadcastInDim S ![] h0 (id (constant (F := Ideal) ⟨0, ![]⟩ .f32 0x00000000#32))) y)))

theorem eluArr_apply {S : Shape} (h0 : (⟨0, ![]⟩ : Shape).BroadcastsInDim S ![]) (y : FVec Ideal S .f32) (i : S.Idx) :
    eluArr h0 y i = elu (y i) := by
  rw [← eluHost_eq]
  unfold eluArr eluHost
  rw [select_apply, cmpf_apply, mulf_apply, broadcastInDim_scalar_apply, broadcastInDim_scalar_apply]
  show Scalar.select _ (y i) (_ * FloatOps.hostUnary .expm1 (select _ _ y i)) = _
  rw [select_apply, cmpf_apply, broadcastInDim_scalar_apply, broadcastInDim_scalar_apply]
  rfl

/-- A kernel's exponential linear unit of one block: a comparison with a splat zero, `exp` minus a splat one. -/
theorem eluBlock_apply {S : Shape} (v : FVec Ideal S .f32) (i : S.Idx) :
    select (cmpf .ogt v (broadcast S (Scalar.ofBits (F := Ideal) .f32 0x00000000#32))) v
        (subf (exp v) (broadcast S (Scalar.ofBits (F := Ideal) .f32 0x3F800000#32))) i = elu (v i) := rfl

/-! ## A one-row bias repeated over the rows -/

section Row

variable {α : Type} {a b : Nat}

/-- The host's broadcast of a [1, b] array to [a, b] reads, at (p, c), the one row at c. -/
theorem hostRow_apply (v : (⟨2, ![1, b]⟩ : Shape).Idx → α)
    (h2 : (⟨2, ![1, b]⟩ : Shape).BroadcastsInDim ⟨2, ![a, b]⟩ ![0, 1]) (p : Fin a) (c : Fin b) :
    broadcastInDim ⟨2, ![a, b]⟩ ![0, 1] h2 v (ix2 p c) = v (ix2 (0 : Fin 1) c) :=
  broadcastInDim_apply ![0, 1] h2 v (ix2 p c) (ix2 (0 : Fin 1) c) (fun ax => by
    match ax with
    | ⟨0, _⟩ => show (0 : Nat) = if (1 : Nat) = 1 then 0 else p.val; rw [if_pos rfl]
    | ⟨1, _⟩ =>
      show c.val = if b = 1 then 0 else c.val
      split
      · have := c.isLt; omega
      · rfl)

/-- A length-b vector viewed as one [1, b] row by the host's broadcast along the second axis reads, at (0, c), the vector at c. -/
theorem hostAsRow_apply (v : (⟨1, ![b]⟩ : Shape).Idx → α)
    (h1 : (⟨1, ![b]⟩ : Shape).BroadcastsInDim ⟨2, ![1, b]⟩ ![1]) (u : Fin 1) (c : Fin b) :
    broadcastInDim ⟨2, ![1, b]⟩ ![1] h1 v (ix2 u c) = v (ix1 c) :=
  broadcastInDim_apply ![1] h1 v (ix2 u c) (ix1 c) (fun ax => by
    match ax with
    | ⟨0, _⟩ =>
      show c.val = if b = 1 then 0 else c.val
      split
      · have := c.isLt; omega
      · rfl)

/-- The same vector reshaped to [1, b] reads, at (0, c), the vector at c. -/
theorem reshapeAsRow_apply (v : (⟨1, ![b]⟩ : Shape).Idx → α) (hs : (⟨1, ![b]⟩ : Shape).ShapeCasts ⟨2, ![1, b]⟩)
    (u : Fin 1) (c : Fin b) : shapeCast ⟨2, ![1, b]⟩ v hs (ix2 u c) = v (ix1 c) :=
  shapeCast_apply v hs _ _ (by
    have hu : u.val = 0 := by omega
    rw [Shape.rowMajor_val_one, Shape.rowMajor_val_two]
    show c.val = u.val * b + c.val
    rw [hu]; omega)

/-- So the reshape and the host's broadcast of a vector to one row are the same array. -/
theorem reshapeAsRow_eq (v : (⟨1, ![b]⟩ : Shape).Idx → α) (hs : (⟨1, ![b]⟩ : Shape).ShapeCasts ⟨2, ![1, b]⟩)
    (h1 : (⟨1, ![b]⟩ : Shape).BroadcastsInDim ⟨2, ![1, b]⟩ ![1]) :
    shapeCast ⟨2, ![1, b]⟩ v hs = broadcastInDim ⟨2, ![1, b]⟩ ![1] h1 v := by
  funext j
  obtain ⟨u, c, rfl⟩ : ∃ (u : Fin 1) (c : Fin b), j = ix2 u c := ⟨j 0, j 1, eq_ix2 j⟩
  rw [reshapeAsRow_apply, hostAsRow_apply]

end Row

/-! ## The layers over whole arrays (the host's spelling) -/

section Host

variable {M K H N : Nat}

/-- Gathered rows plus edge features times a weight plus a bias row, clipped at zero. -/
def edgeStage (d : DotDims ⟨2, ![M, K]⟩ ⟨2, ![K, N]⟩ ⟨2, ![M, N]⟩)
    (h2 : (⟨2, ![1, N]⟩ : Shape).BroadcastsInDim ⟨2, ![M, N]⟩ ![0, 1])
    (h0 : (⟨0, ![]⟩ : Shape).BroadcastsInDim ⟨2, ![M, N]⟩ ![])
    (xs : FVec Ideal ⟨2, ![M, N]⟩ .f32) (e : FVec Ideal ⟨2, ![M, K]⟩ .f32) (w : FVec Ideal ⟨2, ![K, N]⟩ .f32)
    (b : FVec Ideal ⟨2, ![1, N]⟩ .f32) : FVec Ideal ⟨2, ![M, N]⟩ .f32 :=
  maximumf (addf (addf xs (Host.dotGeneral d none e w)) (broadcastInDim ⟨2, ![M, N]⟩ ![0, 1] h2 b))
    (broadcastInDim ⟨2, ![M, N]⟩ ![] h0 (constant (F := Ideal) ⟨0, ![]⟩ .f32 0x00000000#32))

theorem edgeStage_apply {d : DotDims ⟨2, ![M, K]⟩ ⟨2, ![K, N]⟩ ⟨2, ![M, N]⟩} (hd : IsPlain d)
    (h2 : (⟨2, ![1, N]⟩ : Shape).BroadcastsInDim ⟨2, ![M, N]⟩ ![0, 1])
    (h0 : (⟨0, ![]⟩ : Shape).BroadcastsInDim ⟨2, ![M, N]⟩ ![])
    (xs : FVec Ideal ⟨2, ![M, N]⟩ .f32) (e : FVec Ideal ⟨2, ![M, K]⟩ .f32) (w : FVec Ideal ⟨2, ![K, N]⟩ .f32)
    (b : FVec Ideal ⟨2, ![1, N]⟩ .f32) (r : Fin M) (c : Fin N) :
    edgeStage d h2 h0 xs e w b (ix2 r c)
      = max ((xs (ix2 r c) + ∑ k : Fin K, e (ix2 r k) * w (ix2 k c)) + b (ix2 (0 : Fin 1) c)) z := by
  unfold edgeStage
  rw [maximumf_apply, addf_apply, addf_apply, hostRow_apply, broadcastInDim_scalar_apply, constant_apply]
  exact congrArg (fun s => max ((xs (ix2 r c) + s) + b (ix2 (0 : Fin 1) c)) z) (hostDot_apply hd none .single e w r c)

/-- The sum of two arrays through two dense layers, each followed by the exponential linear unit. -/
def nodeStage (d1 : DotDims ⟨2, ![M, K]⟩ ⟨2, ![K, H]⟩ ⟨2, ![M, H]⟩) (d2 : DotDims ⟨2, ![M, H]⟩ ⟨2, ![H, N]⟩ ⟨2, ![M, N]⟩)
    (g2 : (⟨2, ![1, H]⟩ : Shape).BroadcastsInDim ⟨2, ![M, H]⟩ ![0, 1])
    (g0 : (⟨0, ![]⟩ : Shape).BroadcastsInDim ⟨2, ![M, H]⟩ ![])
    (h2 : (⟨2, ![1, N]⟩ : Shape).BroadcastsInDim ⟨2, ![M, N]⟩ ![0, 1])
    (h0 : (⟨0, ![]⟩ : Shape).BroadcastsInDim ⟨2, ![M, N]⟩ ![])
    (x agg : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32) : FVec Ideal ⟨2, ![M, N]⟩ .f32 :=
  eluArr h0 (addf (Host.dotGeneral d2 none
      (eluArr g0 (addf (Host.dotGeneral d1 none (addf x agg) w1) (broadcastInDim ⟨2, ![M, H]⟩ ![0, 1] g2 b1))) w2)
    (broadcastInDim ⟨2, ![M, N]⟩ ![0, 1] h2 b2))

theorem nodeStage_apply {d1 : DotDims ⟨2, ![M, K]⟩ ⟨2, ![K, H]⟩ ⟨2, ![M, H]⟩} {d2 : DotDims ⟨2, ![M, H]⟩ ⟨2, ![H, N]⟩ ⟨2, ![M, N]⟩}
    (hd1 : IsPlain d1) (hd2 : IsPlain d2)
    (g2 : (⟨2, ![1, H]⟩ : Shape).BroadcastsInDim ⟨2, ![M, H]⟩ ![0, 1])
    (g0 : (⟨0, ![]⟩ : Shape).BroadcastsInDim ⟨2, ![M, H]⟩ ![])
    (h2 : (⟨2, ![1, N]⟩ : Shape).BroadcastsInDim ⟨2, ![M, N]⟩ ![0, 1])
    (h0 : (⟨0, ![]⟩ : Shape).BroadcastsInDim ⟨2, ![M, N]⟩ ![])
    (x agg : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32) (r : Fin M) (c : Fin N) :
    nodeStage d1 d2 g2 g0 h2 h0 x agg w1 b1 w2 b2 (ix2 r c)
      = elu ((∑ j : Fin H, elu ((∑ k : Fin K, (x (ix2 r k) + agg (ix2 r k)) * w1 (ix2 k j)) + b1 (ix2 (0 : Fin 1) j))
          * w2 (ix2 j c)) + b2 (ix2 (0 : Fin 1) c)) := by
  unfold nodeStage
  rw [eluArr_apply, addf_apply, hostRow_apply]
  refine congrArg (fun s => elu (s + b2 (ix2 (0 : Fin 1) c))) ?_
  refine (hostDot_apply hd2 none .single _ w2 r c).trans (Finset.sum_congr rfl fun j _ => ?_)
  rw [eluArr_apply, addf_apply, hostRow_apply]
  refine congrArg (fun s => elu (s + b1 (ix2 (0 : Fin 1) j)) * w2 (ix2 j c)) ?_
  exact (hostDot_apply hd1 none .single _ w1 r j).trans (Finset.sum_congr rfl fun k _ => by rw [addf_apply])

/-- Pooled rows through a dense layer clipped at zero and a second dense layer. -/
def readoutStage (d1 : DotDims ⟨2, ![M, K]⟩ ⟨2, ![K, H]⟩ ⟨2, ![M, H]⟩) (d2 : DotDims ⟨2, ![M, H]⟩ ⟨2, ![H, N]⟩ ⟨2, ![M, N]⟩)
    (g2 : (⟨2, ![1, H]⟩ : Shape).BroadcastsInDim ⟨2, ![M, H]⟩ ![0, 1])
    (g0 : (⟨0, ![]⟩ : Shape).BroadcastsInDim ⟨2, ![M, H]⟩ ![])
    (h2 : (⟨2, ![1, N]⟩ : Shape).BroadcastsInDim ⟨2, ![M, N]⟩ ![0, 1])
    (hg : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32) : FVec Ideal ⟨2, ![M, N]⟩ .f32 :=
  addf (Host.dotGeneral d2 none
      (maximumf (addf (Host.dotGeneral d1 none hg w1) (broadcastInDim ⟨2, ![M, H]⟩ ![0, 1] g2 b1))
        (broadcastInDim ⟨2, ![M, H]⟩ ![] g0 (constant (F := Ideal) ⟨0, ![]⟩ .f32 0x00000000#32))) w2)
    (broadcastInDim ⟨2, ![M, N]⟩ ![0, 1] h2 b2)

theorem readoutStage_apply {d1 : DotDims ⟨2, ![M, K]⟩ ⟨2, ![K, H]⟩ ⟨2, ![M, H]⟩} {d2 : DotDims ⟨2, ![M, H]⟩ ⟨2, ![H, N]⟩ ⟨2, ![M, N]⟩}
    (hd1 : IsPlain d1) (hd2 : IsPlain d2)
    (g2 : (⟨2, ![1, H]⟩ : Shape).BroadcastsInDim ⟨2, ![M, H]⟩ ![0, 1])
    (g0 : (⟨0, ![]⟩ : Shape).BroadcastsInDim ⟨2, ![M, H]⟩ ![])
    (h2 : (⟨2, ![1, N]⟩ : Shape).BroadcastsInDim ⟨2, ![M, N]⟩ ![0, 1])
    (hg : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32) (r : Fin M) (c : Fin N) :
    readoutStage d1 d2 g2 g0 h2 hg w1 b1 w2 b2 (ix2 r c)
      = (∑ j : Fin H, max ((∑ k : Fin K, hg (ix2 r k) * w1 (ix2 k j)) + b1 (ix2 (0 : Fin 1) j)) z * w2 (ix2 j c))
          + b2 (ix2 (0 : Fin 1) c) := by
  unfold readoutStage
  rw [addf_apply, hostRow_apply]
  refine congrArg (fun s => s + b2 (ix2 (0 : Fin 1) c)) ?_
  refine (hostDot_apply hd2 none .single _ w2 r c).trans (Finset.sum_congr rfl fun j _ => ?_)
  rw [maximumf_apply, addf_apply, hostRow_apply, broadcastInDim_scalar_apply, constant_apply]
  exact congrArg (fun s => max (s + b1 (ix2 (0 : Fin 1) j)) z * w2 (ix2 j c)) (hostDot_apply hd1 none .single hg w1 r j)

end Host

/-! ## The same layers over one block of rows (a kernel's spelling) -/

section Block

variable {M K H N : Nat}

/-- A [1, b] bias block repeated over the block's rows reads, at (p, c), the one row at c. -/
theorem blockRow_apply {α : Type} {a b : Nat} (v : (⟨2, ![1, b]⟩ : Shape).Idx → α)
    (hs : (⟨2, ![1, b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hs) hb (ix2 p c) = v (ix2 (0 : Fin 1) c) := by
  rw [broadcastTo_1b_ab_apply, shapeCast_self]

/-- A matrix product of two blocks rounded to a narrower format on the way in, into a zero accumulator. -/
theorem blockDot_apply {d : DotDims ⟨2, ![M, K]⟩ ⟨2, ![K, N]⟩ ⟨2, ![M, N]⟩} (hd : IsPlain d)
    (x : FVec Ideal ⟨2, ![M, K]⟩ .f32) (w : FVec Ideal ⟨2, ![K, N]⟩ .f32) (lt : FTy.bf16.bits < FTy.f32.bits)
    (r : Fin M) (c : Fin N) :
    matmul d none (truncf .bf16 x lt) (truncf .bf16 w lt) (constant ⟨2, ![M, N]⟩ .f32 0x00000000#32) (ix2 r c)
      = ∑ k : Fin K, x (ix2 r k) * w (ix2 k c) :=
  matmul_zero_apply hd none (truncf .bf16 x lt) (truncf .bf16 w lt) r c

/-- The edge layer of one block. -/
theorem blockEdge_apply {d : DotDims ⟨2, ![M, K]⟩ ⟨2, ![K, N]⟩ ⟨2, ![M, N]⟩} (hd : IsPlain d)
    (x0 : FVec Ideal ⟨2, ![M, N]⟩ .f32) (x1 : FVec Ideal ⟨2, ![M, K]⟩ .f32) (x2 : FVec Ideal ⟨2, ![K, N]⟩ .f32)
    (x3 : FVec Ideal ⟨2, ![1, N]⟩ .f32)
    (c0 : (⟨2, ![M, N]⟩ : Shape).ShapeCasts ⟨2, ![M, N]⟩) (c1 : (⟨2, ![M, K]⟩ : Shape).ShapeCasts ⟨2, ![M, K]⟩)
    (c3 : (⟨2, ![1, N]⟩ : Shape).ShapeCasts ⟨2, ![1, N]⟩) (hb : (⟨2, ![1, N]⟩ : Shape).Broadcasts ⟨2, ![M, N]⟩)
    (lt : FTy.bf16.bits < FTy.f32.bits) (r : Fin M) (c : Fin N) :
    maximumf (addf (addf (shapeCast ⟨2, ![M, N]⟩ x0 c0)
          (matmul d none (truncf .bf16 (shapeCast ⟨2, ![M, K]⟩ x1 c1) lt) (truncf .bf16 x2 lt)
            (constant ⟨2, ![M, N]⟩ .f32 0x00000000#32)))
        (broadcastTo ⟨2, ![M, N]⟩ (shapeCast ⟨2, ![1, N]⟩ x3 c3) hb))
      (broadcast ⟨2, ![M, N]⟩ (Scalar.ofBits (F := Ideal) .f32 0x00000000#32)) (ix2 r c)
      = max ((x0 (ix2 r c) + ∑ k : Fin K, x1 (ix2 r k) * x2 (ix2 k c)) + x3 (ix2 (0 : Fin 1) c)) z := by
  rw [maximumf_apply, addf_apply, addf_apply, blockRow_apply, broadcast_apply, shapeCast_self, shapeCast_self]
  exact congrArg (fun s => max ((x0 (ix2 r c) + s) + x3 (ix2 (0 : Fin 1) c)) z) (blockDot_apply hd x1 x2 lt r c)

/-- The node layer of one block. -/
theorem blockNode_apply {d1 : DotDims ⟨2, ![M, K]⟩ ⟨2, ![K, H]⟩ ⟨2, ![M, H]⟩} {d2 : DotDims ⟨2, ![M, H]⟩ ⟨2, ![H, N]⟩ ⟨2, ![M, N]⟩}
    (hd1 : IsPlain d1) (hd2 : IsPlain d2)
    (x0 x1 : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32)
    (c0 : (⟨2, ![M, K]⟩ : Shape).ShapeCasts ⟨2, ![M, K]⟩)
    (cb1 : (⟨2, ![1, H]⟩ : Shape).ShapeCasts ⟨2, ![1, H]⟩) (hb1 : (⟨2, ![1, H]⟩ : Shape).Broadcasts ⟨2, ![M, H]⟩)
    (cb2 : (⟨2, ![1, N]⟩ : Shape).ShapeCasts ⟨2, ![1, N]⟩) (hb2 : (⟨2, ![1, N]⟩ : Shape).Broadcasts ⟨2, ![M, N]⟩)
    (lt : FTy.bf16.bits < FTy.f32.bits) (r : Fin M) (c : Fin N) :
    (let v12 := addf (matmul d1 none (truncf .bf16 (addf (shapeCast ⟨2, ![M, K]⟩ x0 c0) (shapeCast ⟨2, ![M, K]⟩ x1 c0)) lt)
          (truncf .bf16 w1 lt) (constant ⟨2, ![M, H]⟩ .f32 0x00000000#32))
        (broadcastTo ⟨2, ![M, H]⟩ (shapeCast ⟨2, ![1, H]⟩ b1 cb1) hb1)
     let v18 := select (cmpf .ogt v12 (broadcast ⟨2, ![M, H]⟩ (Scalar.ofBits (F := Ideal) .f32 0x00000000#32))) v12
        (subf (exp v12) (broadcast ⟨2, ![M, H]⟩ (Scalar.ofBits (F := Ideal) .f32 0x3F800000#32)))
     let v26 := addf (matmul d2 none (truncf .bf16 v18 lt) (truncf .bf16 w2 lt) (constant ⟨2, ![M, N]⟩ .f32 0x00000000#32))
        (broadcastTo ⟨2, ![M, N]⟩ (shapeCast ⟨2, ![1, N]⟩ b2 cb2) hb2)
     select (cmpf .ogt v26 (broadcast ⟨2, ![M, N]⟩ (Scalar.ofBits (F := Ideal) .f32 0x00000000#32))) v26
        (subf (exp v26) (broadcast ⟨2, ![M, N]⟩ (Scalar.ofBits (F := Ideal) .f32 0x3F800000#32)))) (ix2 r c)
      = elu ((∑ j : Fin H, elu ((∑ k : Fin K, (x0 (ix2 r k) + x1 (ix2 r k)) * w1 (ix2 k j)) + b1 (ix2 (0 : Fin 1) j))
          * w2 (ix2 j c)) + b2 (ix2 (0 : Fin 1) c)) := by
  dsimp only
  rw [eluBlock_apply, addf_apply, blockRow_apply]
  refine congrArg (fun s => elu (s + b2 (ix2 (0 : Fin 1) c))) ?_
  refine (blockDot_apply hd2 _ w2 lt r c).trans (Finset.sum_congr rfl fun j _ => ?_)
  rw [eluBlock_apply, addf_apply, blockRow_apply]
  refine congrArg (fun s => elu (s + b1 (ix2 (0 : Fin 1) j)) * w2 (ix2 j c)) ?_
  refine (blockDot_apply hd1 _ w1 lt r j).trans (Finset.sum_congr rfl fun k _ => ?_)
  rw [addf_apply, shapeCast_self, shapeCast_self]

/-- The readout of one block. -/
theorem blockReadout_apply {d1 : DotDims ⟨2, ![M, K]⟩ ⟨2, ![K, H]⟩ ⟨2, ![M, H]⟩} {d2 : DotDims ⟨2, ![M, H]⟩ ⟨2, ![H, N]⟩ ⟨2, ![M, N]⟩}
    (hd1 : IsPlain d1) (hd2 : IsPlain d2)
    (x0 : FVec Ideal ⟨2, ![M, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32)
    (c0 : (⟨2, ![M, K]⟩ : Shape).ShapeCasts ⟨2, ![M, K]⟩)
    (cb1 : (⟨2, ![1, H]⟩ : Shape).ShapeCasts ⟨2, ![1, H]⟩) (hb1 : (⟨2, ![1, H]⟩ : Shape).Broadcasts ⟨2, ![M, H]⟩)
    (cb2 : (⟨2, ![1, N]⟩ : Shape).ShapeCasts ⟨2, ![1, N]⟩) (hb2 : (⟨2, ![1, N]⟩ : Shape).Broadcasts ⟨2, ![M, N]⟩)
    (lt : FTy.bf16.bits < FTy.f32.bits) (r : Fin M) (c : Fin N) :
    addf (matmul d2 none (truncf .bf16
          (maximumf (addf (matmul d1 none (truncf .bf16 (shapeCast ⟨2, ![M, K]⟩ x0 c0) lt) (truncf .bf16 w1 lt)
              (constant ⟨2, ![M, H]⟩ .f32 0x00000000#32))
            (broadcastTo ⟨2, ![M, H]⟩ (shapeCast ⟨2, ![1, H]⟩ b1 cb1) hb1))
          (broadcast ⟨2, ![M, H]⟩ (Scalar.ofBits (F := Ideal) .f32 0x00000000#32))) lt) (truncf .bf16 w2 lt)
        (constant ⟨2, ![M, N]⟩ .f32 0x00000000#32))
      (broadcastTo ⟨2, ![M, N]⟩ (shapeCast ⟨2, ![1, N]⟩ b2 cb2) hb2) (ix2 r c)
      = (∑ j : Fin H, max ((∑ k : Fin K, x0 (ix2 r k) * w1 (ix2 k j)) + b1 (ix2 (0 : Fin 1) j)) z * w2 (ix2 j c))
          + b2 (ix2 (0 : Fin 1) c) := by
  rw [addf_apply, blockRow_apply]
  refine congrArg (fun s => s + b2 (ix2 (0 : Fin 1) c)) ?_
  refine (blockDot_apply hd2 _ w2 lt r c).trans (Finset.sum_congr rfl fun j _ => ?_)
  rw [maximumf_apply, addf_apply, blockRow_apply, broadcast_apply]
  refine congrArg (fun s => max (s + b1 (ix2 (0 : Fin 1) j)) z * w2 (ix2 j c)) ?_
  refine (blockDot_apply hd1 _ w1 lt r j).trans (Finset.sum_congr rfl fun k _ => ?_)
  rw [shapeCast_self]

end Block

end Cert.GraphLayers

end
-- ==== Proof.Layers.lean ====
/-
  The two layers of the network as functions of whole arrays, and what they hold at one index.

  A message layer takes, for each edge, the gathered row of node features, the edge's two attributes, a [2, 128]
  weight and a one-row bias, and returns relu(x + (e · W + b)) row by row.  A node layer takes an array of rows, a
  [128, 128] weight and a one-row bias and returns relu(x · W + b).  Both are written over whole arrays with the
  matrix product, the repeated bias row and the maximum with zero; read at row r and column c each is an
  expression of row r of its inputs, column c of the weight and entry c of the bias row.
-/
import proofs.«134544_j80719615361505_1_alg».proof.Proof.Gen.ReferenceIdeal
import proofs.«134544_j80719615361505_1_alg».proof.Proof.LibRowOps
import proofs.«134544_j80719615361505_1_alg».proof.Proof.LibDense
import proofs.«134544_j80719615361505_1_alg».proof.Proof.LibGraphLayers

noncomputable section

namespace Cert.Gine

open Idealize.ShloMosaic Idealize.ShloMosaic.ValueIdx Cert.RowOps Cert.Dense Cert.GraphLayers
open Cert.ReferenceIdeal Cert.ReferenceIdeal.Facts₀

/-- The [800000, 2] × [2, 128] product contracts the second axis of the left with the first of the right. -/
theorem plainMsg : IsPlain (M := 800000) (K := 2) (N := 128) dot_S800000x2_S2x128_S800000x128_1_0_0_1_n_n :=
  ⟨rfl, rfl, rfl, rfl, rfl, rfl⟩

/-- The [50000, 128] × [128, 128] product contracts the second axis of the left with the first of the right. -/
theorem plainNode : IsPlain (M := 50000) (K := 128) (N := 128) dot_S50000x128_S128x128_S50000x128_1_0_0_1_n_n :=
  ⟨rfl, rfl, rfl, rfl, rfl, rfl⟩

/-- The message layer: relu(xs + (ea · We + be)), the bias a [1, 128] row repeated over the edges. -/
def msg (xs : FVec Ideal S800000x128 .f32) (ea : FVec Ideal S800000x2 .f32) (We : FVec Ideal S2x128 .f32)
    (be : FVec Ideal S1x128 .f32) : FVec Ideal S800000x128 .f32 :=
  maximumf (addf xs (addf (Host.dotGeneral dot_S800000x2_S2x128_S800000x128_1_0_0_1_n_n none ea We)
      (broadcastInDim S800000x128 ![0, 1] bcast_S1x128_S800000x128_0_1 be)))
    (broadcastInDim S800000x128 ![] bcast_S_S800000x128 (constant S_ .f32 0x00000000#32))

/-- The node layer: relu(x · W + b), the bias a [1, 128] row repeated over the nodes. -/
def node (x : FVec Ideal S50000x128 .f32) (W : FVec Ideal S128x128 .f32) (b : FVec Ideal S1x128 .f32) :
    FVec Ideal S50000x128 .f32 :=
  maximumf (addf (Host.dotGeneral dot_S50000x128_S128x128_S50000x128_1_0_0_1_n_n none x W)
      (broadcastInDim S50000x128 ![0, 1] bcast_S1x128_S50000x128_0_1 b))
    (broadcastInDim S50000x128 ![] bcast_S_S50000x128 (constant S_ .f32 0x00000000#32))

/-- The message layer at edge r and column c. -/
theorem msg_apply (xs : FVec Ideal S800000x128 .f32) (ea : FVec Ideal S800000x2 .f32) (We : FVec Ideal S2x128 .f32)
    (be : FVec Ideal S1x128 .f32) (r : Fin 800000) (c : Fin 128) :
    msg xs ea We be (ix2 r c)
      = max (xs (ix2 r c) + ((∑ k : Fin 2, ea (ix2 r k) * We (ix2 k c)) + be (ix2 (0 : Fin 1) c))) z := by
  unfold msg
  rw [maximumf_apply, addf_apply, addf_apply, hostRow_apply, broadcastInDim_scalar_apply, constant_apply]
  exact congrArg (fun s => max (xs (ix2 r c) + (s + be (ix2 (0 : Fin 1) c))) z)
    (hostDot_apply plainMsg none .single ea We r c)

/-- The node layer at node r and column c. -/
theorem node_apply (x : FVec Ideal S50000x128 .f32) (W : FVec Ideal S128x128 .f32) (b : FVec Ideal S1x128 .f32)
    (r : Fin 50000) (c : Fin 128) :
    node x W b (ix2 r c) = max ((∑ k : Fin 128, x (ix2 r k) * W (ix2 k c)) + b (ix2 (0 : Fin 1) c)) z := by
  unfold node
  rw [maximumf_apply, addf_apply, hostRow_apply, broadcastInDim_scalar_apply, constant_apply]
  exact congrArg (fun s => max (s + b (ix2 (0 : Fin 1) c)) z) (hostDot_apply plainNode none .single x W r c)

end Cert.Gine

end
-- ==== Proof.BlockValues.lean ====
/-
  What each kernel body stores, read at one index of its block.

  The message kernel's body loads a [6400, 2] block of edge attributes, the [2, 128] weight, the [1, 128] bias row and a
  [6400, 128] block of gathered rows, and stores relu(rows + (attributes · weight + bias)).  The node kernel's body loads a
  [5000, 128] block of rows, the [128, 128] weight and the [1, 128] bias row, and stores relu(rows · weight + bias).  The
  roundings to a narrower format on the way into the products are the identity on the extended reals, so at row r and
  column c of the block each stored value is the same expression as the whole-array layer's at that row.
-/
import proofs.«134544_j80719615361505_1_alg».proof.Proof.Gen.KernelIdeal.Skeleton
import proofs.«134544_j80719615361505_1_alg».proof.Proof.LibRowOps
import proofs.«134544_j80719615361505_1_alg».proof.Proof.LibDense
import proofs.«134544_j80719615361505_1_alg».proof.Proof.LibGraphLayers

noncomputable section

namespace Cert.Gine.Block

open Idealize.ShloMosaic Idealize.ShloMosaic.ValueIdx Cert.RowOps Cert.Dense Cert.GraphLayers
open Cert.KernelIdeal Cert.KernelIdeal.Gen

/-- The block product [6400, 2] × [2, 128] contracts the second axis of the left with the first of the right. -/
theorem plainMsg : IsPlain (M := 6400) (K := 2) (N := 128) dot_S6400x2_S2x128_S6400x128_1_0_0_1_n_n :=
  ⟨rfl, rfl, rfl, rfl, rfl, rfl⟩

/-- The block product [5000, 128] × [128, 128] contracts the second axis of the left with the first of the right. -/
theorem plainNode : IsPlain (M := 5000) (K := 128) (N := 128) dot_S5000x128_S128x128_S5000x128_1_0_0_1_n_n :=
  ⟨rfl, rfl, rfl, rfl, rfl, rfl⟩

/-- The first message kernel's stored value at row r, column c of its block. -/
theorem msg0_apply (ea : Vec Ideal S6400x2 .f32) (We : Vec Ideal S2x128 .f32) (be : Vec Ideal S1x128 .f32)
    (xs : Vec Ideal S6400x128 .f32) (r : Fin 6400) (c : Fin 128) :
    k0_pay1 ea We be xs (ix2 r c)
      = max (xs (ix2 r c) + ((∑ k : Fin 2, ea (ix2 r k) * We (ix2 k c)) + be (ix2 (0 : Fin 1) c))) z := by
  unfold k0_pay1
  rw [maximumf_apply, addf_apply, addf_apply, shapeCast_self, broadcast_apply, blockRow_apply]
  exact congrArg (fun s => max (xs (ix2 r c) + (s + be (ix2 (0 : Fin 1) c))) z)
    (blockDot_apply plainMsg ea We bitsLt_bf16_f32 r c)

/-- The second message kernel's stored value at row r, column c of its block. -/
theorem msg2_apply (ea : Vec Ideal S6400x2 .f32) (We : Vec Ideal S2x128 .f32) (be : Vec Ideal S1x128 .f32)
    (xs : Vec Ideal S6400x128 .f32) (r : Fin 6400) (c : Fin 128) :
    k2_pay1 ea We be xs (ix2 r c)
      = max (xs (ix2 r c) + ((∑ k : Fin 2, ea (ix2 r k) * We (ix2 k c)) + be (ix2 (0 : Fin 1) c))) z := by
  unfold k2_pay1
  rw [maximumf_apply, addf_apply, addf_apply, shapeCast_self, broadcast_apply, blockRow_apply]
  exact congrArg (fun s => max (xs (ix2 r c) + (s + be (ix2 (0 : Fin 1) c))) z)
    (blockDot_apply plainMsg ea We bitsLt_bf16_f32 r c)

/-- The first node kernel's stored value at row r, column c of its block. -/
theorem node1_apply (x : Vec Ideal S5000x128 .f32) (W : Vec Ideal S128x128 .f32) (b : Vec Ideal S1x128 .f32)
    (r : Fin 5000) (c : Fin 128) :
    k1_pay1 x W b (ix2 r c) = max ((∑ k : Fin 128, x (ix2 r k) * W (ix2 k c)) + b (ix2 (0 : Fin 1) c)) z := by
  unfold k1_pay1
  rw [maximumf_apply, addf_apply, broadcast_apply, blockRow_apply]
  refine congrArg (fun s => max (s + b (ix2 (0 : Fin 1) c)) z) ?_
  refine (blockDot_apply plainNode _ W bitsLt_bf16_f32 r c).trans (Finset.sum_congr rfl fun k _ => ?_)
  rw [shapeCast_self]

/-- The second node kernel's stored value at row r, column c of its block. -/
theorem node3_apply (x : Vec Ideal S5000x128 .f32) (W : Vec Ideal S128x128 .f32) (b : Vec Ideal S1x128 .f32)
    (r : Fin 5000) (c : Fin 128) :
    k3_pay1 x W b (ix2 r c) = max ((∑ k : Fin 128, x (ix2 r k) * W (ix2 k c)) + b (ix2 (0 : Fin 1) c)) z := by
  unfold k3_pay1
  rw [maximumf_apply, addf_apply, broadcast_apply, blockRow_apply]
  refine congrArg (fun s => max (s + b (ix2 (0 : Fin 1) c)) z) ?_
  refine (blockDot_apply plainNode _ W bitsLt_bf16_f32 r c).trans (Finset.sum_congr rfl fun k _ => ?_)
  rw [shapeCast_self]

end Cert.Gine.Block

end
-- ==== Proof.RegionMsg0.lean ====
/-
  The array the first message kernel leaves: the message layer of the arrays it was given.

  The kernel's grid has 125 points; point t works on rows 6400·t … 6400·t + 6399 of the edge attributes and of the
  gathered rows, on the whole weight and on the whole bias row, and writes back rows 6400·t … 6400·t + 6399 of its
  result.  A row of the message layer depends only on the same row of the edge attributes and of the gathered
  rows, so what point t writes back is that block of rows of the message layer of the whole arrays; the 125 blocks
  cover every row, so the result array ends holding the message layer.
-/
import proofs.«134544_j80719615361505_1_alg».proof.Proof.Gen.KernelIdeal.Frame
import proofs.«134544_j80719615361505_1_alg».proof.Proof.Layers
import proofs.«134544_j80719615361505_1_alg».proof.Proof.BlockValues
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.Gine.Msg0

open Cert.KernelIdeal Cert.KernelIdeal.Gen

variable (V : (c : Dev nD) → (b : Ref sig .tc) → Buf (Elt Idealize.ShloMosaic.Ideal) ((c : Thread nD τ).loc b))

theorem offsets_zero : (![0, 0] : Fin 2 → Nat) = fun _ => 0 := funext fun a => by fin_cases a <;> rfl

/-- The block index of every window at point t: the row-blocked windows are at block t, the weight and the bias at
    their one block. -/
theorem block_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The edge-attribute block at point t is rows 6400·t … of the edge attributes. -/
theorem attrs_block (c : Dev nD) (t : Fin cfg0.N) (r : Fin 6400) (k : Fin 2) (R : Fin 800000) (hR : R.val = t.val * 6400 + r.val) :
    (iblk0 V c 0 t : Vec Idealize.ShloMosaic.Ideal S6400x2 .f32) (ix2 r k)
      = (V c (Pipeline.arrRef spec0 0) : S800000x2.Idx → EReal) (ix2 R k) := by
  obtain ⟨e0, e1, -⟩ := block_index t
  unfold iblk0
  rw [View.read_apply]
  refine congrArg (V c (Pipeline.arrRef spec0 0) : S800000x2.Idx → EReal) (funext fun a => Fin.ext ?_)
  match a with
  | ⟨0, _⟩ => show win0_0.index t 0 * 6400 + 1 * r.val = R.val; rw [e0, hR]; omega
  | ⟨1, _⟩ => show win0_0.index t 1 * 2 + 1 * k.val = k.val; rw [e1]; omega

/-- The gathered-rows block at point t is rows 6400·t … of the gathered rows. -/
theorem rows_block (c : Dev nD) (t : Fin cfg0.N) (r : Fin 6400) (q : Fin 128) (R : Fin 800000) (hR : R.val = t.val * 6400 + r.val) :
    (iblk0 V c 1 t : Vec Idealize.ShloMosaic.Ideal S6400x128 .f32) (ix2 r q)
      = (V c (Pipeline.arrRef spec0 1) : S800000x128.Idx → EReal) (ix2 R q) := by
  obtain ⟨-, -, e0, e1, -⟩ := block_index t
  unfold iblk0
  rw [View.read_apply]
  refine congrArg (V c (Pipeline.arrRef spec0 1) : S800000x128.Idx → EReal) (funext fun a => Fin.ext ?_)
  match a with
  | ⟨0, _⟩ => show win0_1.index t 0 * 6400 + 1 * r.val = R.val; rw [e0, hR]; omega
  | ⟨1, _⟩ => show win0_1.index t 1 * 128 + 1 * q.val = q.val; rw [e1]; omega

/-- The weight block at every point is the whole weight. -/
theorem weight_block (c : Dev nD) (t : Fin cfg0.N) (k : Fin 2) (q : Fin 128) :
    (iblk0 V c 2 t : Vec Idealize.ShloMosaic.Ideal S2x128 .f32) (ix2 k q)
      = (V c (Pipeline.arrRef spec0 2) : S2x128.Idx → EReal) (ix2 k q) := by
  obtain ⟨-, -, -, -, e0, e1, -⟩ := block_index t
  unfold iblk0
  rw [View.read_apply]
  refine congrArg (V c (Pipeline.arrRef spec0 2) : S2x128.Idx → EReal) (funext fun a => Fin.ext ?_)
  match a with
  | ⟨0, _⟩ => show win0_2.index t 0 * 2 + 1 * k.val = k.val; rw [e0]; omega
  | ⟨1, _⟩ => show win0_2.index t 1 * 128 + 1 * q.val = q.val; rw [e1]; omega

/-- The bias block at every point is the whole bias row. -/
theorem bias_block (c : Dev nD) (t : Fin cfg0.N) (u : Fin 1) (q : Fin 128) :
    (iblk0 V c 3 t : Vec Idealize.ShloMosaic.Ideal S1x128 .f32) (ix2 u q)
      = (V c (Pipeline.arrRef spec0 3) : S1x128.Idx → EReal) (ix2 u q) := by
  obtain ⟨-, -, -, -, -, -, e0, e1, -⟩ := block_index t
  unfold iblk0
  rw [View.read_apply]
  refine congrArg (V c (Pipeline.arrRef spec0 3) : S1x128.Idx → EReal) (funext fun a => Fin.ext ?_)
  match a with
  | ⟨0, _⟩ => show win0_3.index t 0 * 1 + 1 * u.val = u.val; rw [e0]; omega
  | ⟨1, _⟩ => show win0_3.index t 1 * 128 + 1 * q.val = q.val; rw [e1]; omega

/-- The message layer of the arrays the region was given. -/
abbrev result (c : Dev nD) : S800000x128.Idx → EReal :=
  Cert.Gine.msg (V c (Pipeline.arrRef spec0 1)) (V c (Pipeline.arrRef spec0 0)) (V c (Pipeline.arrRef spec0 2))
    (V c (Pipeline.arrRef spec0 3))

/-- What the body stores at point t, at row r and column q of its block, is the message layer at row 6400·t + r. -/
theorem stored_eq (c : Dev nD) (t : Fin cfg0.N) (j : S6400x128.Idx) (i : S800000x128.Idx)
    (hi0 : (i 0).val = t.val * 6400 + (j 0).val) (hi1 : (i 1).val = (j 1).val) :
    k0_pay1 (iblk0 V c 0 t) (iblk0 V c 2 t) (iblk0 V c 3 t) (iblk0 V c 1 t) j = result V c i := by
  obtain ⟨r, q, rfl⟩ : ∃ (r : Fin 6400) (q : Fin 128), j = ix2 r q := ⟨j 0, j 1, eq_ix2 j⟩
  obtain ⟨R, Q, rfl⟩ : ∃ (R : Fin 800000) (Q : Fin 128), i = ix2 R Q := ⟨i 0, i 1, eq_ix2 i⟩
  have hR : R.val = t.val * 6400 + r.val := hi0
  obtain rfl : Q = q := Fin.ext hi1
  unfold result
  rw [Cert.Gine.Block.msg0_apply, Cert.Gine.msg_apply]
  simp only [fun k => attrs_block V c t r k R hR, rows_block V c t r Q R hR, weight_block V c t, bias_block V c t]

/-- What point t writes back is block t of the message layer. -/
theorem flushed_eq (c : Dev nD) (t : Fin cfg0.N) :
    (dat0 V c).flushed 4 t = ((cfg0.win 4).blk t).view.read (Elt Idealize.ShloMosaic.Ideal) (result V c) := by
  show (cfg0.win 4).cut (grid0.coords t) ((dat0 V c).after 4 t) = _
  rw [after0_4]
  unfold out0_4
  rw [View.canon_unit_zero offsets_zero]
  simp only [View.ld_unit_zero (S := S6400x2) offsets_zero, View.ld_unit_zero (S := S2x128) offsets_zero,
    View.ld_unit_zero (S := S1x128) offsets_zero, View.ld_unit_zero (S := S6400x128) offsets_zero]
  obtain ⟨-, -, -, -, -, -, -, -, e0, e1⟩ := block_index t
  funext j
  refine stored_eq V c t j _ ?_ ?_
  · show win0_4.index t 0 * 6400 + 1 * (j 0).val = t.val * 6400 + (j 0).val; rw [e0]; omega
  · show win0_4.index t 1 * 128 + 1 * (j 1).val = (j 1).val; rw [e1]; omega

/-- An index of the result array is in point t's block iff each coordinate is in the block's range on its axis. -/
theorem mem_block (t : Fin cfg0.N) (i : S800000x128.Idx) :
    i ∈ ((cfg0.win 4).blk t).view.set ↔ ∀ a : Fin 2, win0_4.index t a * S6400x128.size a ≤ (i a).val
      ∧ (i a).val < win0_4.index t a * S6400x128.size a + S6400x128.size a := by
  show i ∈ ((View.whole main_v12).slice (win0_4.rect t)).set ↔ _
  rw [View.set_slice_whole, Rect.mem_set_unit]
  exact Iff.rfl

/-- Every row of the result is in the block of the point its row number divided by 6400 names. -/
theorem covered (i : S800000x128.Idx) :
    ∃ t : Fin cfg0.N, (cfg0.win 4).flush t = true ∧ i ∈ ((cfg0.win 4).blk t).view.set := by
  have hi0 : (i 0).val < 800000 := (i 0).isLt
  have hi1 : (i 1).val < 128 := (i 1).isLt
  have hN : cfg0.N = 125 := N_0
  let t : Fin cfg0.N := ⟨(i 0).val / 6400, by rw [hN]; omega⟩
  obtain ⟨-, -, -, -, -, -, -, -, e0, e1⟩ := block_index t
  have ht : t.val = (i 0).val / 6400 := rfl
  refine ⟨t, flush0_4 t, ?_⟩
  rw [mem_block]
  intro a
  match a with
  | ⟨0, _⟩ => show win0_4.index t 0 * 6400 ≤ (i 0).val ∧ (i 0).val < win0_4.index t 0 * 6400 + 6400; rw [e0, ht]; omega
  | ⟨1, _⟩ => show win0_4.index t 1 * 128 ≤ (i 1).val ∧ (i 1).val < win0_4.index t 1 * 128 + 128; rw [e1]; omega

/-- The result array after the region is the message layer of the arrays the region was given. -/
theorem final (c : Dev nD) : (dat0 V c).arrAt 4 cfg0.N = result V c :=
  (dat0 V c).arrAt_eq_of_cover 4 (result V c) (fun t _ => flushed_eq V c t) (covered)

end Cert.Gine.Msg0

end
-- ==== Proof.RegionNode1.lean ====
/-
  The array the first node kernel leaves: the node layer of the arrays it was given.

  The kernel's grid has 10 points; point t works on rows 5000·t … 5000·t + 4999 of its input rows, on the whole weight
  and on the whole bias row, and writes back rows 5000·t … 5000·t + 4999 of its result.  A row of the node layer depends
  only on the same row of the input, so what point t writes back is that block of rows of the node layer of the
  whole arrays; the 10 blocks cover every row, so the result array ends holding the node layer.
-/
import proofs.«134544_j80719615361505_1_alg».proof.Proof.Gen.KernelIdeal.Frame
import proofs.«134544_j80719615361505_1_alg».proof.Proof.Layers
import proofs.«134544_j80719615361505_1_alg».proof.Proof.BlockValues
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.Gine.Node1

open Cert.KernelIdeal Cert.KernelIdeal.Gen

variable (V : (c : Dev nD) → (b : Ref sig .tc) → Buf (Elt Idealize.ShloMosaic.Ideal) ((c : Thread nD τ).loc b))

theorem offsets_zero : (![0, 0] : Fin 2 → Nat) = fun _ => 0 := funext fun a => by fin_cases a <;> rfl

/-- The block index of every window at point t: the row-blocked windows are at block t, the weight and the bias at
    their one block. -/
theorem block_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input block at point t is rows 5000·t … of the input. -/
theorem rows_block (c : Dev nD) (t : Fin cfg1.N) (r : Fin 5000) (k : Fin 128) (R : Fin 50000) (hR : R.val = t.val * 5000 + r.val) :
    (iblk1 V c 0 t : Vec Idealize.ShloMosaic.Ideal S5000x128 .f32) (ix2 r k)
      = (V c (Pipeline.arrRef spec1 0) : S50000x128.Idx → EReal) (ix2 R k) := by
  obtain ⟨e0, e1, -⟩ := block_index t
  unfold iblk1
  rw [View.read_apply]
  refine congrArg (V c (Pipeline.arrRef spec1 0) : S50000x128.Idx → EReal) (funext fun a => Fin.ext ?_)
  match a with
  | ⟨0, _⟩ => show win1_0.index t 0 * 5000 + 1 * r.val = R.val; rw [e0, hR]; omega
  | ⟨1, _⟩ => show win1_0.index t 1 * 128 + 1 * k.val = k.val; rw [e1]; omega

/-- The weight block at every point is the whole weight. -/
theorem weight_block (c : Dev nD) (t : Fin cfg1.N) (k : Fin 128) (q : Fin 128) :
    (iblk1 V c 1 t : Vec Idealize.ShloMosaic.Ideal S128x128 .f32) (ix2 k q)
      = (V c (Pipeline.arrRef spec1 1) : S128x128.Idx → EReal) (ix2 k q) := by
  obtain ⟨-, -, e0, e1, -⟩ := block_index t
  unfold iblk1
  rw [View.read_apply]
  refine congrArg (V c (Pipeline.arrRef spec1 1) : S128x128.Idx → EReal) (funext fun a => Fin.ext ?_)
  match a with
  | ⟨0, _⟩ => show win1_1.index t 0 * 128 + 1 * k.val = k.val; rw [e0]; omega
  | ⟨1, _⟩ => show win1_1.index t 1 * 128 + 1 * q.val = q.val; rw [e1]; omega

/-- The bias block at every point is the whole bias row. -/
theorem bias_block (c : Dev nD) (t : Fin cfg1.N) (u : Fin 1) (q : Fin 128) :
    (iblk1 V c 2 t : Vec Idealize.ShloMosaic.Ideal S1x128 .f32) (ix2 u q)
      = (V c (Pipeline.arrRef spec1 2) : S1x128.Idx → EReal) (ix2 u q) := by
  obtain ⟨-, -, -, -, e0, e1, -⟩ := block_index t
  unfold iblk1
  rw [View.read_apply]
  refine congrArg (V c (Pipeline.arrRef spec1 2) : S1x128.Idx → EReal) (funext fun a => Fin.ext ?_)
  match a with
  | ⟨0, _⟩ => show win1_2.index t 0 * 1 + 1 * u.val = u.val; rw [e0]; omega
  | ⟨1, _⟩ => show win1_2.index t 1 * 128 + 1 * q.val = q.val; rw [e1]; omega

/-- The node layer of the arrays the region was given. -/
abbrev result (c : Dev nD) : S50000x128.Idx → EReal :=
  Cert.Gine.node (V c (Pipeline.arrRef spec1 0)) (V c (Pipeline.arrRef spec1 1)) (V c (Pipeline.arrRef spec1 2))

/-- What the body stores at point t, at row r and column q of its block, is the node layer at row 5000·t + r. -/
theorem stored_eq (c : Dev nD) (t : Fin cfg1.N) (j : S5000x128.Idx) (i : S50000x128.Idx)
    (hi0 : (i 0).val = t.val * 5000 + (j 0).val) (hi1 : (i 1).val = (j 1).val) :
    k1_pay1 (iblk1 V c 0 t) (iblk1 V c 1 t) (iblk1 V c 2 t) j = result V c i := by
  obtain ⟨r, q, rfl⟩ : ∃ (r : Fin 5000) (q : Fin 128), j = ix2 r q := ⟨j 0, j 1, eq_ix2 j⟩
  obtain ⟨R, Q, rfl⟩ : ∃ (R : Fin 50000) (Q : Fin 128), i = ix2 R Q := ⟨i 0, i 1, eq_ix2 i⟩
  have hR : R.val = t.val * 5000 + r.val := hi0
  obtain rfl : Q = q := Fin.ext hi1
  unfold result
  rw [Cert.Gine.Block.node1_apply, Cert.Gine.node_apply]
  simp only [fun k => rows_block V c t r k R hR, weight_block V c t, bias_block V c t]

/-- What point t writes back is block t of the node layer. -/
theorem flushed_eq (c : Dev nD) (t : Fin cfg1.N) :
    (dat1 V c).flushed 3 t = ((cfg1.win 3).blk t).view.read (Elt Idealize.ShloMosaic.Ideal) (result V c) := by
  show (cfg1.win 3).cut (grid1.coords t) ((dat1 V c).after 3 t) = _
  rw [after1_3]
  unfold out1_3
  rw [View.canon_unit_zero offsets_zero]
  simp only [View.ld_unit_zero (S := S5000x128) offsets_zero, View.ld_unit_zero (S := S128x128) offsets_zero,
    View.ld_unit_zero (S := S1x128) offsets_zero]
  obtain ⟨-, -, -, -, -, -, e0, e1⟩ := block_index t
  funext j
  refine stored_eq V c t j _ ?_ ?_
  · show win1_3.index t 0 * 5000 + 1 * (j 0).val = t.val * 5000 + (j 0).val; rw [e0]; omega
  · show win1_3.index t 1 * 128 + 1 * (j 1).val = (j 1).val; rw [e1]; omega

/-- An index of the result array is in point t's block iff each coordinate is in the block's range on its axis. -/
theorem mem_block (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v21).slice (win1_3.rect t)).set ↔ _
  rw [View.set_slice_whole, Rect.mem_set_unit]
  exact Iff.rfl

/-- Every row of the result is in the block of the point its row number divided by 5000 names. -/
theorem covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨-, -, -, -, -, -, e0, e1⟩ := block_index t
  have ht : t.val = (i 0).val / 5000 := rfl
  refine ⟨t, flush1_3 t, ?_⟩
  rw [mem_block]
  intro a
  match a with
  | ⟨0, _⟩ => show win1_3.index t 0 * 5000 ≤ (i 0).val ∧ (i 0).val < win1_3.index t 0 * 5000 + 5000; rw [e0, ht]; omega
  | ⟨1, _⟩ => show win1_3.index t 1 * 128 ≤ (i 1).val ∧ (i 1).val < win1_3.index t 1 * 128 + 128; rw [e1]; omega

/-- The result array after the region is the node layer of the arrays the region was given. -/
theorem final (c : Dev nD) : (dat1 V c).arrAt 3 cfg1.N = result V c :=
  (dat1 V c).arrAt_eq_of_cover 3 (result V c) (fun t _ => flushed_eq V c t) (covered)

end Cert.Gine.Node1

end
-- ==== Proof.RegionMsg2.lean ====
/-
  The array the second message kernel leaves: the message layer of the arrays it was given.

  The kernel's grid has 125 points; point t works on rows 6400·t … 6400·t + 6399 of the edge attributes and of the
  gathered rows, on the whole weight and on the whole bias row, and writes back rows 6400·t … 6400·t + 6399 of its
  result.  A row of the message layer depends only on the same row of the edge attributes and of the gathered
  rows, so what point t writes back is that block of rows of the message layer of the whole arrays; the 125 blocks
  cover every row, so the result array ends holding the message layer.
-/
import proofs.«134544_j80719615361505_1_alg».proof.Proof.Gen.KernelIdeal.Frame
import proofs.«134544_j80719615361505_1_alg».proof.Proof.Layers
import proofs.«134544_j80719615361505_1_alg».proof.Proof.BlockValues
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.Gine.Msg2

open Cert.KernelIdeal Cert.KernelIdeal.Gen

variable (V : (c : Dev nD) → (b : Ref sig .tc) → Buf (Elt Idealize.ShloMosaic.Ideal) ((c : Thread nD τ).loc b))

theorem offsets_zero : (![0, 0] : Fin 2 → Nat) = fun _ => 0 := funext fun a => by fin_cases a <;> rfl

/-- The block index of every window at point t: the row-blocked windows are at block t, the weight and the bias at
    their one block. -/
theorem block_index : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The edge-attribute block at point t is rows 6400·t … of the edge attributes. -/
theorem attrs_block (c : Dev nD) (t : Fin cfg2.N) (r : Fin 6400) (k : Fin 2) (R : Fin 800000) (hR : R.val = t.val * 6400 + r.val) :
    (iblk2 V c 0 t : Vec Idealize.ShloMosaic.Ideal S6400x2 .f32) (ix2 r k)
      = (V c (Pipeline.arrRef spec2 0) : S800000x2.Idx → EReal) (ix2 R k) := by
  obtain ⟨e0, e1, -⟩ := block_index t
  unfold iblk2
  rw [View.read_apply]
  refine congrArg (V c (Pipeline.arrRef spec2 0) : S800000x2.Idx → EReal) (funext fun a => Fin.ext ?_)
  match a with
  | ⟨0, _⟩ => show win2_0.index t 0 * 6400 + 1 * r.val = R.val; rw [e0, hR]; omega
  | ⟨1, _⟩ => show win2_0.index t 1 * 2 + 1 * k.val = k.val; rw [e1]; omega

/-- The gathered-rows block at point t is rows 6400·t … of the gathered rows. -/
theorem rows_block (c : Dev nD) (t : Fin cfg2.N) (r : Fin 6400) (q : Fin 128) (R : Fin 800000) (hR : R.val = t.val * 6400 + r.val) :
    (iblk2 V c 1 t : Vec Idealize.ShloMosaic.Ideal S6400x128 .f32) (ix2 r q)
      = (V c (Pipeline.arrRef spec2 1) : S800000x128.Idx → EReal) (ix2 R q) := by
  obtain ⟨-, -, e0, e1, -⟩ := block_index t
  unfold iblk2
  rw [View.read_apply]
  refine congrArg (V c (Pipeline.arrRef spec2 1) : S800000x128.Idx → EReal) (funext fun a => Fin.ext ?_)
  match a with
  | ⟨0, _⟩ => show win2_1.index t 0 * 6400 + 1 * r.val = R.val; rw [e0, hR]; omega
  | ⟨1, _⟩ => show win2_1.index t 1 * 128 + 1 * q.val = q.val; rw [e1]; omega

/-- The weight block at every point is the whole weight. -/
theorem weight_block (c : Dev nD) (t : Fin cfg2.N) (k : Fin 2) (q : Fin 128) :
    (iblk2 V c 2 t : Vec Idealize.ShloMosaic.Ideal S2x128 .f32) (ix2 k q)
      = (V c (Pipeline.arrRef spec2 2) : S2x128.Idx → EReal) (ix2 k q) := by
  obtain ⟨-, -, -, -, e0, e1, -⟩ := block_index t
  unfold iblk2
  rw [View.read_apply]
  refine congrArg (V c (Pipeline.arrRef spec2 2) : S2x128.Idx → EReal) (funext fun a => Fin.ext ?_)
  match a with
  | ⟨0, _⟩ => show win2_2.index t 0 * 2 + 1 * k.val = k.val; rw [e0]; omega
  | ⟨1, _⟩ => show win2_2.index t 1 * 128 + 1 * q.val = q.val; rw [e1]; omega

/-- The bias block at every point is the whole bias row. -/
theorem bias_block (c : Dev nD) (t : Fin cfg2.N) (u : Fin 1) (q : Fin 128) :
    (iblk2 V c 3 t : Vec Idealize.ShloMosaic.Ideal S1x128 .f32) (ix2 u q)
      = (V c (Pipeline.arrRef spec2 3) : S1x128.Idx → EReal) (ix2 u q) := by
  obtain ⟨-, -, -, -, -, -, e0, e1, -⟩ := block_index t
  unfold iblk2
  rw [View.read_apply]
  refine congrArg (V c (Pipeline.arrRef spec2 3) : S1x128.Idx → EReal) (funext fun a => Fin.ext ?_)
  match a with
  | ⟨0, _⟩ => show win2_3.index t 0 * 1 + 1 * u.val = u.val; rw [e0]; omega
  | ⟨1, _⟩ => show win2_3.index t 1 * 128 + 1 * q.val = q.val; rw [e1]; omega

/-- The message layer of the arrays the region was given. -/
abbrev result (c : Dev nD) : S800000x128.Idx → EReal :=
  Cert.Gine.msg (V c (Pipeline.arrRef spec2 1)) (V c (Pipeline.arrRef spec2 0)) (V c (Pipeline.arrRef spec2 2))
    (V c (Pipeline.arrRef spec2 3))

/-- What the body stores at point t, at row r and column q of its block, is the message layer at row 6400·t + r. -/
theorem stored_eq (c : Dev nD) (t : Fin cfg2.N) (j : S6400x128.Idx) (i : S800000x128.Idx)
    (hi0 : (i 0).val = t.val * 6400 + (j 0).val) (hi1 : (i 1).val = (j 1).val) :
    k2_pay1 (iblk2 V c 0 t) (iblk2 V c 2 t) (iblk2 V c 3 t) (iblk2 V c 1 t) j = result V c i := by
  obtain ⟨r, q, rfl⟩ : ∃ (r : Fin 6400) (q : Fin 128), j = ix2 r q := ⟨j 0, j 1, eq_ix2 j⟩
  obtain ⟨R, Q, rfl⟩ : ∃ (R : Fin 800000) (Q : Fin 128), i = ix2 R Q := ⟨i 0, i 1, eq_ix2 i⟩
  have hR : R.val = t.val * 6400 + r.val := hi0
  obtain rfl : Q = q := Fin.ext hi1
  unfold result
  rw [Cert.Gine.Block.msg2_apply, Cert.Gine.msg_apply]
  simp only [fun k => attrs_block V c t r k R hR, rows_block V c t r Q R hR, weight_block V c t, bias_block V c t]

/-- What point t writes back is block t of the message layer. -/
theorem flushed_eq (c : Dev nD) (t : Fin cfg2.N) :
    (dat2 V c).flushed 4 t = ((cfg2.win 4).blk t).view.read (Elt Idealize.ShloMosaic.Ideal) (result V c) := by
  show (cfg2.win 4).cut (grid2.coords t) ((dat2 V c).after 4 t) = _
  rw [after2_4]
  unfold out2_4
  rw [View.canon_unit_zero offsets_zero]
  simp only [View.ld_unit_zero (S := S6400x2) offsets_zero, View.ld_unit_zero (S := S2x128) offsets_zero,
    View.ld_unit_zero (S := S1x128) offsets_zero, View.ld_unit_zero (S := S6400x128) offsets_zero]
  obtain ⟨-, -, -, -, -, -, -, -, e0, e1⟩ := block_index t
  funext j
  refine stored_eq V c t j _ ?_ ?_
  · show win2_4.index t 0 * 6400 + 1 * (j 0).val = t.val * 6400 + (j 0).val; rw [e0]; omega
  · show win2_4.index t 1 * 128 + 1 * (j 1).val = (j 1).val; rw [e1]; omega

/-- An index of the result array is in point t's block iff each coordinate is in the block's range on its axis. -/
theorem mem_block (t : Fin cfg2.N) (i : S800000x128.Idx) :
    i ∈ ((cfg2.win 4).blk t).view.set ↔ ∀ a : Fin 2, win2_4.index t a * S6400x128.size a ≤ (i a).val
      ∧ (i a).val < win2_4.index t a * S6400x128.size a + S6400x128.size a := by
  show i ∈ ((View.whole main_v30).slice (win2_4.rect t)).set ↔ _
  rw [View.set_slice_whole, Rect.mem_set_unit]
  exact Iff.rfl

/-- Every row of the result is in the block of the point its row number divided by 6400 names. -/
theorem covered (i : S800000x128.Idx) :
    ∃ t : Fin cfg2.N, (cfg2.win 4).flush t = true ∧ i ∈ ((cfg2.win 4).blk t).view.set := by
  have hi0 : (i 0).val < 800000 := (i 0).isLt
  have hi1 : (i 1).val < 128 := (i 1).isLt
  have hN : cfg2.N = 125 := N_2
  let t : Fin cfg2.N := ⟨(i 0).val / 6400, by rw [hN]; omega⟩
  obtain ⟨-, -, -, -, -, -, -, -, e0, e1⟩ := block_index t
  have ht : t.val = (i 0).val / 6400 := rfl
  refine ⟨t, flush2_4 t, ?_⟩
  rw [mem_block]
  intro a
  match a with
  | ⟨0, _⟩ => show win2_4.index t 0 * 6400 ≤ (i 0).val ∧ (i 0).val < win2_4.index t 0 * 6400 + 6400; rw [e0, ht]; omega
  | ⟨1, _⟩ => show win2_4.index t 1 * 128 ≤ (i 1).val ∧ (i 1).val < win2_4.index t 1 * 128 + 128; rw [e1]; omega

/-- The result array after the region is the message layer of the arrays the region was given. -/
theorem final (c : Dev nD) : (dat2 V c).arrAt 4 cfg2.N = result V c :=
  (dat2 V c).arrAt_eq_of_cover 4 (result V c) (fun t _ => flushed_eq V c t) (covered)

end Cert.Gine.Msg2

end
-- ==== Proof.RegionNode3.lean ====
/-
  The array the second node kernel leaves: the node layer of the arrays it was given.

  The kernel's grid has 10 points; point t works on rows 5000·t … 5000·t + 4999 of its input rows, on the whole weight
  and on the whole bias row, and writes back rows 5000·t … 5000·t + 4999 of its result.  A row of the node layer depends
  only on the same row of the input, so what point t writes back is that block of rows of the node layer of the
  whole arrays; the 10 blocks cover every row, so the result array ends holding the node layer.
-/
import proofs.«134544_j80719615361505_1_alg».proof.Proof.Gen.KernelIdeal.Frame
import proofs.«134544_j80719615361505_1_alg».proof.Proof.Layers
import proofs.«134544_j80719615361505_1_alg».proof.Proof.BlockValues
import Idealize.ShloMosaic.Lib.Pipeline.Value

set_option maxRecDepth 16384

noncomputable section

open Idealize.ShloMosaic Idealize.ShloMosaic.TcCoe Idealize.SL.Sem Idealize.ShloMosaic.ValueIdx
open Idealize.ShloMosaic.Pipeline (Dat)

namespace Cert.Gine.Node3

open Cert.KernelIdeal Cert.KernelIdeal.Gen

variable (V : (c : Dev nD) → (b : Ref sig .tc) → Buf (Elt Idealize.ShloMosaic.Ideal) ((c : Thread nD τ).loc b))

theorem offsets_zero : (![0, 0] : Fin 2 → Nat) = fun _ => 0 := funext fun a => by fin_cases a <;> rfl

/-- The block index of every window at point t: the row-blocked windows are at block t, the weight and the bias at
    their one block. -/
theorem block_index : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- The input block at point t is rows 5000·t … of the input. -/
theorem rows_block (c : Dev nD) (t : Fin cfg3.N) (r : Fin 5000) (k : Fin 128) (R : Fin 50000) (hR : R.val = t.val * 5000 + r.val) :
    (iblk3 V c 0 t : Vec Idealize.ShloMosaic.Ideal S5000x128 .f32) (ix2 r k)
      = (V c (Pipeline.arrRef spec3 0) : S50000x128.Idx → EReal) (ix2 R k) := by
  obtain ⟨e0, e1, -⟩ := block_index t
  unfold iblk3
  rw [View.read_apply]
  refine congrArg (V c (Pipeline.arrRef spec3 0) : S50000x128.Idx → EReal) (funext fun a => Fin.ext ?_)
  match a with
  | ⟨0, _⟩ => show win3_0.index t 0 * 5000 + 1 * r.val = R.val; rw [e0, hR]; omega
  | ⟨1, _⟩ => show win3_0.index t 1 * 128 + 1 * k.val = k.val; rw [e1]; omega

/-- The weight block at every point is the whole weight. -/
theorem weight_block (c : Dev nD) (t : Fin cfg3.N) (k : Fin 128) (q : Fin 128) :
    (iblk3 V c 1 t : Vec Idealize.ShloMosaic.Ideal S128x128 .f32) (ix2 k q)
      = (V c (Pipeline.arrRef spec3 1) : S128x128.Idx → EReal) (ix2 k q) := by
  obtain ⟨-, -, e0, e1, -⟩ := block_index t
  unfold iblk3
  rw [View.read_apply]
  refine congrArg (V c (Pipeline.arrRef spec3 1) : S128x128.Idx → EReal) (funext fun a => Fin.ext ?_)
  match a with
  | ⟨0, _⟩ => show win3_1.index t 0 * 128 + 1 * k.val = k.val; rw [e0]; omega
  | ⟨1, _⟩ => show win3_1.index t 1 * 128 + 1 * q.val = q.val; rw [e1]; omega

/-- The bias block at every point is the whole bias row. -/
theorem bias_block (c : Dev nD) (t : Fin cfg3.N) (u : Fin 1) (q : Fin 128) :
    (iblk3 V c 2 t : Vec Idealize.ShloMosaic.Ideal S1x128 .f32) (ix2 u q)
      = (V c (Pipeline.arrRef spec3 2) : S1x128.Idx → EReal) (ix2 u q) := by
  obtain ⟨-, -, -, -, e0, e1, -⟩ := block_index t
  unfold iblk3
  rw [View.read_apply]
  refine congrArg (V c (Pipeline.arrRef spec3 2) : S1x128.Idx → EReal) (funext fun a => Fin.ext ?_)
  match a with
  | ⟨0, _⟩ => show win3_2.index t 0 * 1 + 1 * u.val = u.val; rw [e0]; omega
  | ⟨1, _⟩ => show win3_2.index t 1 * 128 + 1 * q.val = q.val; rw [e1]; omega

/-- The node layer of the arrays the region was given. -/
abbrev result (c : Dev nD) : S50000x128.Idx → EReal :=
  Cert.Gine.node (V c (Pipeline.arrRef spec3 0)) (V c (Pipeline.arrRef spec3 1)) (V c (Pipeline.arrRef spec3 2))

/-- What the body stores at point t, at row r and column q of its block, is the node layer at row 5000·t + r. -/
theorem stored_eq (c : Dev nD) (t : Fin cfg3.N) (j : S5000x128.Idx) (i : S50000x128.Idx)
    (hi0 : (i 0).val = t.val * 5000 + (j 0).val) (hi1 : (i 1).val = (j 1).val) :
    k3_pay1 (iblk3 V c 0 t) (iblk3 V c 1 t) (iblk3 V c 2 t) j = result V c i := by
  obtain ⟨r, q, rfl⟩ : ∃ (r : Fin 5000) (q : Fin 128), j = ix2 r q := ⟨j 0, j 1, eq_ix2 j⟩
  obtain ⟨R, Q, rfl⟩ : ∃ (R : Fin 50000) (Q : Fin 128), i = ix2 R Q := ⟨i 0, i 1, eq_ix2 i⟩
  have hR : R.val = t.val * 5000 + r.val := hi0
  obtain rfl : Q = q := Fin.ext hi1
  unfold result
  rw [Cert.Gine.Block.node3_apply, Cert.Gine.node_apply]
  simp only [fun k => rows_block V c t r k R hR, weight_block V c t, bias_block V c t]

/-- What point t writes back is block t of the node layer. -/
theorem flushed_eq (c : Dev nD) (t : Fin cfg3.N) :
    (dat3 V c).flushed 3 t = ((cfg3.win 3).blk t).view.read (Elt Idealize.ShloMosaic.Ideal) (result V c) := by
  show (cfg3.win 3).cut (grid3.coords t) ((dat3 V c).after 3 t) = _
  rw [after3_3]
  unfold out3_3
  rw [View.canon_unit_zero offsets_zero]
  simp only [View.ld_unit_zero (S := S5000x128) offsets_zero, View.ld_unit_zero (S := S128x128) offsets_zero,
    View.ld_unit_zero (S := S1x128) offsets_zero]
  obtain ⟨-, -, -, -, -, -, e0, e1⟩ := block_index t
  funext j
  refine stored_eq V c t j _ ?_ ?_
  · show win3_3.index t 0 * 5000 + 1 * (j 0).val = t.val * 5000 + (j 0).val; rw [e0]; omega
  · show win3_3.index t 1 * 128 + 1 * (j 1).val = (j 1).val; rw [e1]; omega

/-- An index of the result array is in point t's block iff each coordinate is in the block's range on its axis. -/
theorem mem_block (t : Fin cfg3.N) (i : S50000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v39).slice (win3_3.rect t)).set ↔ _
  rw [View.set_slice_whole, Rect.mem_set_unit]
  exact Iff.rfl

/-- Every row of the result is in the block of the point its row number divided by 5000 names. -/
theorem covered (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨-, -, -, -, -, -, e0, e1⟩ := block_index t
  have ht : t.val = (i 0).val / 5000 := rfl
  refine ⟨t, flush3_3 t, ?_⟩
  rw [mem_block]
  intro a
  match a with
  | ⟨0, _⟩ => show win3_3.index t 0 * 5000 ≤ (i 0).val ∧ (i 0).val < win3_3.index t 0 * 5000 + 5000; rw [e0, ht]; omega
  | ⟨1, _⟩ => show win3_3.index t 1 * 128 ≤ (i 1).val ∧ (i 1).val < win3_3.index t 1 * 128 + 128; rw [e1]; omega

/-- The result array after the region is the node layer of the arrays the region was given. -/
theorem final (c : Dev nD) : (dat3 V c).arrAt 3 cfg3.N = result V c :=
  (dat3 V c).arrAt_eq_of_cover 3 (result V c) (fun t _ => flushed_eq V c t) (covered)

end Cert.Gine.Node3

end
-- ==== Proof.LibRegionOp.lean ====
/-
  A pipelined region as one pure operation of a program's fold.

  A program that alternates stretches of host operations with pipelined regions leaves, at each boundary, the
  buffer contents obtained by folding its segments over the launch contents: a host operation rewrites its result
  buffer with its function of its operands, and a region rewrites its arrays with what its write-backs leave.
  When a region's input arrays end as it found them and its one output array ends at a function of those inputs,
  the region rewrites the contents exactly as one host operation with that function would.  The whole program is
  then one line of operations, and what a buffer holds at the end is a computation over that line.
-/
import Idealize.ShloMosaic.Lib.Pipeline.FrameSuffix
import Idealize.ShloMosaic.Lib.StableHlo.Run

noncomputable section

namespace Cert.RegionOp

open Idealize.ShloMosaic Idealize.ShloMosaic.StableHlo Idealize.ShloMosaic.TcCoe

variable {nD : Nat} {τ : Topo} {sig : RefSig} {Val : EltTy → Type}

/-- Two lines run one after the other leave what their concatenation leaves. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

/-- A region whose output array `o` ends at what the operation `op` writes there, whose other arrays end as the
    region found them, and which writes nothing else, leaves what `op` leaves. -/
theorem withArrays_eq_result {gr W : Nat} (win : Fin W → Pipeline.WinSpec sig gr) (hinj : Function.Injective (Pipeline.arrRef win))
    (c : Dev nD) (V : Valuation τ sig Val) (A : (w : Fin W) → Buf Val ((win w).arr.view.loc (c.tc : Thread nD τ)))
    (op : HloOp τ sig Val) (o : Fin W)
    (hw : op.writes = {Proc.devRef .tc (Pipeline.arrRef win o)})
    (hout : A o = op.result V (Proc.devRef .tc (Pipeline.arrRef win o)))
    (hin : ∀ w, w ≠ o → A w = V (Proc.devRef .tc (Pipeline.arrRef win w))) :
    Pipeline.withArrays win c V A = op.result V := by
  funext b
  by_cases h : ∃ w, Proc.devRef .tc (Pipeline.arrRef win w) = b
  · obtain ⟨w, rfl⟩ := h
    rw [Pipeline.withArrays_arr win hinj]
    by_cases hwo : w = o
    · subst hwo; exact hout
    · rw [hin w hwo, op.result_of_not_mem V (by
        rw [hw, Finset.mem_singleton]; exact fun e => hwo (hinj (Proc.devRef_injective _ e)))]
  · have hb : b ∉ op.writes := by
      rw [hw, Finset.mem_singleton]; exact fun e => h ⟨o, e.symm⟩
    rw [op.result_of_not_mem V hb]
    unfold Pipeline.withArrays
    rw [dif_neg h]

end Cert.RegionOp

end
-- ==== Proof.Network.lean ====
/-
  The two-layer network as one function of its arguments.

  Each layer gathers, for every edge, the feature row of the edge's source node (an index below zero counted from
  the end), passes it with the edge's attributes through the message layer, adds the messages up at each edge's
  target node, adds (1 + eps) times the node's own features, and passes the sum through the node layer.  The
  network is two such layers over the same edges, the second reading the first's result.
-/
import proofs.«134544_j80719615361505_1_alg».proof.Proof.Layers

noncomputable section

namespace Cert.Gine

open Idealize.ShloMosaic
open Cert.ReferenceIdeal Cert.ReferenceIdeal.Facts₀

/-- The source node of every edge, as a column of gather indices: row 0 of the edge list, an index below zero moved up
    by the number of nodes. -/
def srcCol (ei : (⟨S2x800000, .i32⟩ : BufTy).Contents (Elt Ideal)) : (⟨S800000x1, .i32⟩ : BufTy).Contents (Elt Ideal) :=
  broadcastInDim S800000x1 ![0] bcast_S800000_S800000x1_0
    (select (cmpi .slt (shapeCast _ (extractStridedSlice S1x800000 ![0, 0] ei slices_S2x800000_S1x800000_0_0) shapeCasts_S1x800000_S800000)
        (broadcastInDim S800000 ![] bcast_S_S800000 (constantI S_ 32 0#32)))
      (addi (shapeCast _ (extractStridedSlice S1x800000 ![0, 0] ei slices_S2x800000_S1x800000_0_0) shapeCasts_S1x800000_S800000)
        (broadcastInDim S800000 ![] bcast_S_S800000 (constantI S_ 32 50000#32)))
      (shapeCast _ (extractStridedSlice S1x800000 ![0, 0] ei slices_S2x800000_S1x800000_0_0) shapeCasts_S1x800000_S800000))

/-- The target node of every edge, as a column of scatter indices: row 1 of the edge list. -/
def dstCol (ei : (⟨S2x800000, .i32⟩ : BufTy).Contents (Elt Ideal)) : (⟨S800000x1, .i32⟩ : BufTy).Contents (Elt Ideal) :=
  broadcastInDim S800000x1 ![0] bcast_S800000_S800000x1_0
    (shapeCast _ (extractStridedSlice S1x800000 ![1, 0] ei slices_S2x800000_S1x800000_1_0) shapeCasts_S1x800000_S800000)

/-- One layer: the node layer of (1 + eps) · x plus the messages added up at their target nodes. -/
def layer (x : (⟨S50000x128, .f32⟩ : BufTy).Contents (Elt Ideal)) (ei : (⟨S2x800000, .i32⟩ : BufTy).Contents (Elt Ideal))
    (ea : (⟨S800000x2, .f32⟩ : BufTy).Contents (Elt Ideal)) (We : (⟨S2x128, .f32⟩ : BufTy).Contents (Elt Ideal))
    (be : (⟨S1x128, .f32⟩ : BufTy).Contents (Elt Ideal)) (W : (⟨S128x128, .f32⟩ : BufTy).Contents (Elt Ideal))
    (b : (⟨S1x128, .f32⟩ : BufTy).Contents (Elt Ideal)) (eps : (⟨S_, .f32⟩ : BufTy).Contents (Elt Ideal)) :
    (⟨S50000x128, .f32⟩ : BufTy).Contents (Elt Ideal) :=
  node (addf (mulf (broadcastInDim S50000x128 ![] bcast_S_S50000x128 (addf (constant S_ .f32 0x3F800000#32) eps)) x)
      (Host.scatterAdd scatter_S50000x128_S800000x1_S800000x128_1_0_0_1
        (broadcastInDim S50000x128 ![] bcast_S_S50000x128 (constant S_ .f32 0x00000000#32)) (dstCol ei)
        (msg (Host.gather gather_S50000x128_S800000x1_S800000x128_1_0_n_n_0_1_1128 x (srcCol ei)) ea We be))) W b

/-- The network: two layers over the same edges. -/
def net (x : (⟨S50000x128, .f32⟩ : BufTy).Contents (Elt Ideal)) (ei : (⟨S2x800000, .i32⟩ : BufTy).Contents (Elt Ideal))
    (ea : (⟨S800000x2, .f32⟩ : BufTy).Contents (Elt Ideal))
    (We1 : (⟨S2x128, .f32⟩ : BufTy).Contents (Elt Ideal)) (be1 : (⟨S1x128, .f32⟩ : BufTy).Contents (Elt Ideal))
    (W1 : (⟨S128x128, .f32⟩ : BufTy).Contents (Elt Ideal)) (b1 : (⟨S1x128, .f32⟩ : BufTy).Contents (Elt Ideal))
    (eps1 : (⟨S_, .f32⟩ : BufTy).Contents (Elt Ideal))
    (We2 : (⟨S2x128, .f32⟩ : BufTy).Contents (Elt Ideal)) (be2 : (⟨S1x128, .f32⟩ : BufTy).Contents (Elt Ideal))
    (W2 : (⟨S128x128, .f32⟩ : BufTy).Contents (Elt Ideal)) (b2 : (⟨S1x128, .f32⟩ : BufTy).Contents (Elt Ideal))
    (eps2 : (⟨S_, .f32⟩ : BufTy).Contents (Elt Ideal)) : (⟨S50000x128, .f32⟩ : BufTy).Contents (Elt Ideal) :=
  layer (layer x ei ea We1 be1 W1 b1 eps1) ei ea We2 be2 W2 b2 eps2

end Cert.Gine

end
-- ==== Proof.KernelOps.lean ====
/-
  The kernel program's result buffer as the network of its arguments.

  The program is four stretches of host operations with a kernel region after each.  A region whose input arrays end
  as it found them and whose one result array ends at a function of those inputs rewrites the buffer contents exactly
  as one host operation with that function would; the four regions' functions are the message layer and the node
  layer, twice.  So the contents when the program returns are those of one line of operations from the launch
  contents, and the result buffer holds the two-layer network of the arguments, each bias entering as its
  reshape to one row.
-/
import proofs.«134544_j80719615361505_1_alg».proof.Proof.Gen.KernelIdeal.Frame
import proofs.«134544_j80719615361505_1_alg».proof.Proof.RegionMsg0
import proofs.«134544_j80719615361505_1_alg».proof.Proof.RegionNode1
import proofs.«134544_j80719615361505_1_alg».proof.Proof.RegionMsg2
import proofs.«134544_j80719615361505_1_alg».proof.Proof.RegionNode3
import proofs.«134544_j80719615361505_1_alg».proof.Proof.LibRegionOp
import proofs.«134544_j80719615361505_1_alg».proof.Proof.Network
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.Gine.Kernel

open Cert.KernelIdeal Cert.KernelIdeal.Gen

variable (m : (ℓ : Loc nD τ sig) → Buf (Elt Idealize.ShloMosaic.Ideal) ℓ) (ρ : Dev nD → PrngReg)

/-- The first message region as one operation: the message layer of the edge attributes, the gathered rows, the weight
    and the bias row, written to the region's result buffer. -/
def msgOp0 : HloOp τ sig (Elt Idealize.ShloMosaic.Ideal) :=
  quaternary main_arg2 main_v10 main_arg3 main_v11 main_v12 (fun ea xs We be => Cert.Gine.msg xs ea We be)

/-- The first node region as one operation. -/
def nodeOp1 : HloOp τ sig (Elt Idealize.ShloMosaic.Ideal) :=
  ternary main_v19 main_arg5 main_v20 main_v21 (fun x W b => Cert.Gine.node x W b)

/-- The second message region as one operation. -/
def msgOp2 : HloOp τ sig (Elt Idealize.ShloMosaic.Ideal) :=
  quaternary main_arg2 main_v28 main_arg8 main_v29 main_v30 (fun ea xs We be => Cert.Gine.msg xs ea We be)

/-- The second node region as one operation. -/
def nodeOp3 : HloOp τ sig (Elt Idealize.ShloMosaic.Ideal) :=
  ternary main_v37 main_arg10 main_v38 main_v39 (fun x W b => Cert.Gine.node x W b)

/-- The contents after the first message region are those the operation leaves. -/
theorem after_region0 (c : Dev nD) : W2 m ρ c = msgOp0.result (W1 m ρ c) := by
  unfold W2
  refine Cert.RegionOp.withArrays_eq_result spec0 launch0.win.arr_inj c (W1 m ρ c) _ msgOp0 4 rfl ?_ ?_
  · exact (Cert.Gine.Msg0.final (V1 m ρ) c).trans
      (quaternary_result main_arg2 main_v10 main_arg3 main_v11 main_v12 (fun ea xs We be => Cert.Gine.msg xs ea We be) _ _ _ _ _ (W1 m ρ c)).symm
  · intro w hw
    match w, hw with
    | ⟨0, _⟩, _ => exact ((dat0 (V1 m ρ) c).arrAt_in 0 rfl _).trans (A_eq0 (V1 m ρ) c 0)
    | ⟨1, _⟩, _ => exact ((dat0 (V1 m ρ) c).arrAt_in 1 rfl _).trans (A_eq0 (V1 m ρ) c 1)
    | ⟨2, _⟩, _ => exact ((dat0 (V1 m ρ) c).arrAt_in 2 rfl _).trans (A_eq0 (V1 m ρ) c 2)
    | ⟨3, _⟩, _ => exact ((dat0 (V1 m ρ) c).arrAt_in 3 rfl _).trans (A_eq0 (V1 m ρ) c 3)
    | ⟨4, _⟩, h => exact absurd rfl h

/-- The contents after the first node region are those the operation leaves. -/
theorem after_region1 (c : Dev nD) : W4 m ρ c = nodeOp1.result (W3 m ρ c) := by
  unfold W4
  refine Cert.RegionOp.withArrays_eq_result spec1 launch1.win.arr_inj c (W3 m ρ c) _ nodeOp1 3 rfl ?_ ?_
  · exact (Cert.Gine.Node1.final (V3 m ρ) c).trans
      (ternary_result main_v19 main_arg5 main_v20 main_v21 _ _ _ _ _ (W3 m ρ c)).symm
  · intro w hw
    match w, hw with
    | ⟨0, _⟩, _ => exact ((dat1 (V3 m ρ) c).arrAt_in 0 rfl _).trans (A_eq1 (V3 m ρ) c 0)
    | ⟨1, _⟩, _ => exact ((dat1 (V3 m ρ) c).arrAt_in 1 rfl _).trans (A_eq1 (V3 m ρ) c 1)
    | ⟨2, _⟩, _ => exact ((dat1 (V3 m ρ) c).arrAt_in 2 rfl _).trans (A_eq1 (V3 m ρ) c 2)
    | ⟨3, _⟩, h => exact absurd rfl h

/-- The contents after the second message region are those the operation leaves. -/
theorem after_region2 (c : Dev nD) : W6 m ρ c = msgOp2.result (W5 m ρ c) := by
  unfold W6
  refine Cert.RegionOp.withArrays_eq_result spec2 launch2.win.arr_inj c (W5 m ρ c) _ msgOp2 4 rfl ?_ ?_
  · exact (Cert.Gine.Msg2.final (V5 m ρ) c).trans
      (quaternary_result main_arg2 main_v28 main_arg8 main_v29 main_v30 (fun ea xs We be => Cert.Gine.msg xs ea We be) _ _ _ _ _ (W5 m ρ c)).symm
  · intro w hw
    match w, hw with
    | ⟨0, _⟩, _ => exact ((dat2 (V5 m ρ) c).arrAt_in 0 rfl _).trans (A_eq2 (V5 m ρ) c 0)
    | ⟨1, _⟩, _ => exact ((dat2 (V5 m ρ) c).arrAt_in 1 rfl _).trans (A_eq2 (V5 m ρ) c 1)
    | ⟨2, _⟩, _ => exact ((dat2 (V5 m ρ) c).arrAt_in 2 rfl _).trans (A_eq2 (V5 m ρ) c 2)
    | ⟨3, _⟩, _ => exact ((dat2 (V5 m ρ) c).arrAt_in 3 rfl _).trans (A_eq2 (V5 m ρ) c 3)
    | ⟨4, _⟩, h => exact absurd rfl h

/-- The contents after the second node region are those the operation leaves. -/
theorem after_region3 (c : Dev nD) : W8 m ρ c = nodeOp3.result (W7 m ρ c) := by
  unfold W8
  refine Cert.RegionOp.withArrays_eq_result spec3 launch3.win.arr_inj c (W7 m ρ c) _ nodeOp3 3 rfl ?_ ?_
  · exact (Cert.Gine.Node3.final (V7 m ρ) c).trans
      (ternary_result main_v37 main_arg10 main_v38 main_v39 _ _ _ _ _ (W7 m ρ c)).symm
  · intro w hw
    match w, hw with
    | ⟨0, _⟩, _ => exact ((dat3 (V7 m ρ) c).arrAt_in 0 rfl _).trans (A_eq3 (V7 m ρ) c 0)
    | ⟨1, _⟩, _ => exact ((dat3 (V7 m ρ) c).arrAt_in 1 rfl _).trans (A_eq3 (V7 m ρ) c 1)
    | ⟨2, _⟩, _ => exact ((dat3 (V7 m ρ) c).arrAt_in 2 rfl _).trans (A_eq3 (V7 m ρ) c 2)
    | ⟨3, _⟩, h => exact absurd rfl h

/-- The contents when the program returns: the stretches and the regions' operations applied in order from the launch
    contents. -/
theorem final_contents (c : Dev nD) :
    W8 m ρ c = nodeOp3.result (after hostOps3 (msgOp2.result (after hostOps2 (nodeOp1.result (after hostOps1
      (msgOp0.result (after hostOps0 (W0 m ρ c)))))))) := by
  rw [after_region3]
  show nodeOp3.result (after hostOps3 (W6 m ρ c)) = _
  rw [after_region2]
  show nodeOp3.result (after hostOps3 (msgOp2.result (after hostOps2 (W4 m ρ c)))) = _
  rw [after_region1]
  show nodeOp3.result (after hostOps3 (msgOp2.result (after hostOps2 (nodeOp1.result (after hostOps1 (W2 m ρ c)))))) = _
  rw [after_region0]

end Cert.Gine.Kernel

end
-- ==== Proof.KernelValue.lean ====
/-
  The kernel program's result buffer holds the network of its arguments.

  Reading the one line of operations — the four stretches of host operations and the four regions' operations — at the
  result buffer gives the second node layer of the second stretch's sum, which reads the second message layer, which
  reads the first node layer, and so on down to the arguments at launch: the network, each bias as its reshape to one row.
-/
import proofs.«134544_j80719615361505_1_alg».proof.Proof.KernelOps

set_option maxRecDepth 16384

noncomputable section

open Idealize.ShloMosaic Idealize.ShloMosaic.TcCoe Idealize.SL.Sem Idealize.ShloMosaic.StableHlo

namespace Cert.Gine.Kernel

open Cert.KernelIdeal Cert.KernelIdeal.Gen

variable (m : (ℓ : Loc nD τ sig) → Buf (Elt Idealize.ShloMosaic.Ideal) ℓ) (ρ : Dev nD → PrngReg)

set_option maxHeartbeats 4000000 in
/-- The result buffer when the program returns. -/
theorem result_value (c : Dev nD) :
    W8 m ρ c (Proc.devRef .tc main_v39)
      = Cert.Gine.net (m ((c.tc : Thread nD τ).loc main_arg0)) (m ((c.tc : Thread nD τ).loc main_arg1))
          (m ((c.tc : Thread nD τ).loc main_arg2)) (m ((c.tc : Thread nD τ).loc main_arg3))
          (shapeCast S1x128 (m ((c.tc : Thread nD τ).loc main_arg4)) Facts₀.shapeCasts_S128_S1x128)
          (m ((c.tc : Thread nD τ).loc main_arg5))
          (shapeCast S1x128 (m ((c.tc : Thread nD τ).loc main_arg6)) Facts₀.shapeCasts_S128_S1x128)
          (m ((c.tc : Thread nD τ).loc main_arg7)) (m ((c.tc : Thread nD τ).loc main_arg8))
          (shapeCast S1x128 (m ((c.tc : Thread nD τ).loc main_arg9)) Facts₀.shapeCasts_S128_S1x128)
          (m ((c.tc : Thread nD τ).loc main_arg10))
          (shapeCast S1x128 (m ((c.tc : Thread nD τ).loc main_arg11)) Facts₀.shapeCasts_S128_S1x128)
          (m ((c.tc : Thread nD τ).loc main_arg12)) := by
  rw [final_contents]
  unfold msgOp0 nodeOp1 msgOp2 nodeOp3
  simp only [hostOps0, hostOps1, hostOps2, hostOps3]
  after_results_simp
  rfl

end Cert.Gine.Kernel

end
-- ==== Proof.RefValue.lean ====
/-
  The reference program's result as the network of its arguments.

  The reference computes the two layers with host operations only: per layer a matrix product of the edge attributes with
  the edge weight plus the bias repeated over the edges, the gathered source rows added, a maximum with zero, a
  scatter-add at the target nodes, (1 + eps) · x added, a matrix product with the node weight plus the bias repeated over
  the nodes, and a maximum with zero.  That is the network's definition with each bias entering as the host's
  broadcast of the length-128 vector to one row.
-/
import proofs.«134544_j80719615361505_1_alg».proof.Proof.Gen.ReferenceIdeal.Run
import proofs.«134544_j80719615361505_1_alg».proof.Proof.Network

set_option maxRecDepth 16384

noncomputable section

open Idealize.ShloMosaic Idealize.ShloMosaic.TcCoe Idealize.SL.Sem

namespace Cert.Gine.Reference

open Cert.ReferenceIdeal Cert.ReferenceIdeal.Value Cert.ReferenceIdeal.Facts₀

variable (m : (ℓ : Loc nD τ sig) → Buf (Elt Idealize.ShloMosaic.Ideal) ℓ)

/-- The reference's result term is the network of the arguments, the biases as one-row broadcasts. -/
theorem result_eq (c : Dev nD) :
    res_out0 (F := Idealize.ShloMosaic.Ideal) m c
      = Cert.Gine.net (m ((c.tc : Thread nD τ).loc main_arg0)) (m ((c.tc : Thread nD τ).loc main_arg1))
          (m ((c.tc : Thread nD τ).loc main_arg2)) (m ((c.tc : Thread nD τ).loc main_arg3))
          (broadcastInDim S1x128 ![1] bcast_S128_S1x128_1 (m ((c.tc : Thread nD τ).loc main_arg4)))
          (m ((c.tc : Thread nD τ).loc main_arg5))
          (broadcastInDim S1x128 ![1] bcast_S128_S1x128_1 (m ((c.tc : Thread nD τ).loc main_arg6)))
          (m ((c.tc : Thread nD τ).loc main_arg7)) (m ((c.tc : Thread nD τ).loc main_arg8))
          (broadcastInDim S1x128 ![1] bcast_S128_S1x128_1 (m ((c.tc : Thread nD τ).loc main_arg9)))
          (m ((c.tc : Thread nD τ).loc main_arg10))
          (broadcastInDim S1x128 ![1] bcast_S128_S1x128_1 (m ((c.tc : Thread nD τ).loc main_arg11)))
          (m ((c.tc : Thread nD τ).loc main_arg12)) := by
  show res_main_v53 (F := Idealize.ShloMosaic.Ideal) m c = _
  unfold res_main_v53 Cert.Gine.net Cert.Gine.layer Cert.Gine.msg Cert.Gine.node Cert.Gine.srcCol Cert.Gine.dstCol
  rfl

end Cert.Gine.Reference

end
-- ==== Proof.BiasRows.lean ====
/-
  A bias as one row, two ways.

  The kernel program reshapes each length-128 bias to a [1, 128] row; the reference broadcasts it to a [1, 128] row along
  the second axis.  Both rows hold the bias entry c at (0, c), so the network of the one is the network of the other.
-/
import proofs.«134544_j80719615361505_1_alg».proof.Proof.Network
import proofs.«134544_j80719615361505_1_alg».proof.Proof.LibGraphLayers

noncomputable section

namespace Cert.Gine

open Idealize.ShloMosaic
open Cert.ReferenceIdeal Cert.ReferenceIdeal.Facts₀

/-- The network with its four biases reshaped to rows is the network with them broadcast to rows. -/
theorem net_bias_rows (x : (⟨S50000x128, .f32⟩ : BufTy).Contents (Elt Ideal)) (ei : (⟨S2x800000, .i32⟩ : BufTy).Contents (Elt Ideal))
    (ea : (⟨S800000x2, .f32⟩ : BufTy).Contents (Elt Ideal))
    (We1 : (⟨S2x128, .f32⟩ : BufTy).Contents (Elt Ideal)) (be1 : (⟨S128, .f32⟩ : BufTy).Contents (Elt Ideal))
    (W1 : (⟨S128x128, .f32⟩ : BufTy).Contents (Elt Ideal)) (b1 : (⟨S128, .f32⟩ : BufTy).Contents (Elt Ideal))
    (eps1 : (⟨S_, .f32⟩ : BufTy).Contents (Elt Ideal))
    (We2 : (⟨S2x128, .f32⟩ : BufTy).Contents (Elt Ideal)) (be2 : (⟨S128, .f32⟩ : BufTy).Contents (Elt Ideal))
    (W2 : (⟨S128x128, .f32⟩ : BufTy).Contents (Elt Ideal)) (b2 : (⟨S128, .f32⟩ : BufTy).Contents (Elt Ideal))
    (eps2 : (⟨S_, .f32⟩ : BufTy).Contents (Elt Ideal)) (hs : S128.ShapeCasts S1x128) :
    net x ei ea We1 (shapeCast S1x128 be1 hs) W1 (shapeCast S1x128 b1 hs) eps1
        We2 (shapeCast S1x128 be2 hs) W2 (shapeCast S1x128 b2 hs) eps2
      = net x ei ea We1 (broadcastInDim S1x128 ![1] bcast_S128_S1x128_1 be1) W1 (broadcastInDim S1x128 ![1] bcast_S128_S1x128_1 b1) eps1
        We2 (broadcastInDim S1x128 ![1] bcast_S128_S1x128_1 be2) W2 (broadcastInDim S1x128 ![1] bcast_S128_S1x128_1 b2) eps2 := by
  rw [Cert.GraphLayers.reshapeAsRow_eq be1 hs bcast_S128_S1x128_1, Cert.GraphLayers.reshapeAsRow_eq b1 hs bcast_S128_S1x128_1,
    Cert.GraphLayers.reshapeAsRow_eq be2 hs bcast_S128_S1x128_1, Cert.GraphLayers.reshapeAsRow_eq b2 hs bcast_S128_S1x128_1]

end Cert.Gine

end
-- ==== Proof.lean ====
/-
  A two-layer graph network with edge features, as a kernel program and as plain array code: equal results on the
  extended reals.

  Each layer computes, for every edge, relu(x[source] + (attributes · We + be)), adds the messages up at each edge's target
  node, adds (1 + eps) · x, and applies relu(· W + b).  The kernel program runs the message step and the node step of each
  layer as kernels over blocks of rows (6400 edges, 5000 nodes at a time), with the gathers, the scatter-adds and the
  (1 + eps) · x + sum between them as host operations; the reference runs everything as host operations.  A row of either
  step depends only on the same row of its inputs, so each kernel leaves the whole-array step in its result array
  (RegionMsg0/2, RegionNode1/3), each region then acts as one operation (KernelOps), and the program's result buffer holds
  the two-layer network of the arguments (KernelValue), which is what the reference's run computes (RefValue).  The one
  difference in spelling is how a length-128 bias becomes a [1, 128] row — a reshape against a broadcast — and the two rows
  are equal (BiasRows).  No law of arithmetic is used: the two sides are one expression, so the finiteness of the inputs
  is never opened.
-/
import proofs.«134544_j80719615361505_1_alg».proof.Defs
import proofs.«134544_j80719615361505_1_alg».proof.Proof.Gen.Kernel
import proofs.«134544_j80719615361505_1_alg».proof.Proof.Gen.Kernel.Frame
import proofs.«134544_j80719615361505_1_alg».proof.Proof.Gen.KernelIdeal
import proofs.«134544_j80719615361505_1_alg».proof.Proof.Gen.KernelIdeal.Frame
import proofs.«134544_j80719615361505_1_alg».proof.Proof.Gen.ReferenceIdeal
import proofs.«134544_j80719615361505_1_alg».proof.Proof.Gen.ReferenceIdeal.Run
import proofs.«134544_j80719615361505_1_alg».proof.Proof.Gen.Pre_finite_inputs
import proofs.«134544_j80719615361505_1_alg».proof.Proof.KernelRun
import proofs.«134544_j80719615361505_1_alg».proof.Proof.KernelValue
import proofs.«134544_j80719615361505_1_alg».proof.Proof.RefValue
import proofs.«134544_j80719615361505_1_alg».proof.Proof.BiasRows
import Idealize.ShloMosaic.Adequacy
import Idealize.ShloMosaic.Init

set_option maxRecDepth 16384

noncomputable section

namespace Cert.Proof

open Idealize.ShloMosaic Idealize.ShloMosaic.TcCoe Idealize.SL.Sem

/-- The kernel program as printed runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the two-layer network of the arguments in their
    result buffers. -/
theorem algebraic : Cert.algebraic_KernelIdeal_ReferenceIdeal := by
  intro m ρ m' ρ' _ hagree
  refine ⟨fun c => Cert.KernelIdeal.Gen.W8 m ρ c (Proc.devRef .tc Cert.KernelIdeal.main_v39), ?_, ?_⟩
  · refine (θ_run Cert.KernelIdeal.defs _ _).mono (fun r h c => ?_) (Cert.Gine.Kernel.run_contents (F := Ideal) m ρ)
    exact ⟨h c _ (Cert.KernelIdeal.Gen.mem_uc Cert.KernelIdeal.main_v39 (by decide)),
      (h c _ (Cert.KernelIdeal.Gen.mem_uc Cert.KernelIdeal.main_arg0 (by decide))).trans (Cert.KernelIdeal.Gen.W8_main_arg0 m ρ c),
      (h c _ (Cert.KernelIdeal.Gen.mem_uc Cert.KernelIdeal.main_arg1 (by decide))).trans (Cert.KernelIdeal.Gen.W8_main_arg1 m ρ c),
      (h c _ (Cert.KernelIdeal.Gen.mem_uc Cert.KernelIdeal.main_arg2 (by decide))).trans (Cert.KernelIdeal.Gen.W8_main_arg2 m ρ c),
      (h c _ (Cert.KernelIdeal.Gen.mem_uc Cert.KernelIdeal.main_arg3 (by decide))).trans (Cert.KernelIdeal.Gen.W8_main_arg3 m ρ c),
      (h c _ (Cert.KernelIdeal.Gen.mem_uc Cert.KernelIdeal.main_arg4 (by decide))).trans (Cert.KernelIdeal.Gen.W8_main_arg4 m ρ c),
      (h c _ (Cert.KernelIdeal.Gen.mem_uc Cert.KernelIdeal.main_arg5 (by decide))).trans (Cert.KernelIdeal.Gen.W8_main_arg5 m ρ c),
      (h c _ (Cert.KernelIdeal.Gen.mem_uc Cert.KernelIdeal.main_arg6 (by decide))).trans (Cert.KernelIdeal.Gen.W8_main_arg6 m ρ c),
      (h c _ (Cert.KernelIdeal.Gen.mem_uc Cert.KernelIdeal.main_arg7 (by decide))).trans (Cert.KernelIdeal.Gen.W8_main_arg7 m ρ c),
      (h c _ (Cert.KernelIdeal.Gen.mem_uc Cert.KernelIdeal.main_arg8 (by decide))).trans (Cert.KernelIdeal.Gen.W8_main_arg8 m ρ c),
      (h c _ (Cert.KernelIdeal.Gen.mem_uc Cert.KernelIdeal.main_arg9 (by decide))).trans (Cert.KernelIdeal.Gen.W8_main_arg9 m ρ c),
      (h c _ (Cert.KernelIdeal.Gen.mem_uc Cert.KernelIdeal.main_arg10 (by decide))).trans (Cert.KernelIdeal.Gen.W8_main_arg10 m ρ c),
      (h c _ (Cert.KernelIdeal.Gen.mem_uc Cert.KernelIdeal.main_arg11 (by decide))).trans (Cert.KernelIdeal.Gen.W8_main_arg11 m ρ c),
      (h c _ (Cert.KernelIdeal.Gen.mem_uc Cert.KernelIdeal.main_arg12 (by decide))).trans (Cert.KernelIdeal.Gen.W8_main_arg12 m ρ c)⟩
  · refine (θ_run Cert.ReferenceIdeal.defs _ _).mono (fun _ h c => ⟨(h c).1.trans ?_, (h c).2⟩)
      (Cert.ReferenceIdeal.Value.run (F := Ideal) m' ρ')
    refine (Cert.Gine.Reference.result_eq m' c).trans ?_
    obtain ⟨h0, h1, h2, h3, h4, h5, h6, h7, h8, h9, h10, h11, h12⟩ := hagree c
    rw [h0, h1, h2, h3, h4, h5, h6, h7, h8, h9, h10, h11, h12]
    exact (Cert.Gine.net_bias_rows _ _ _ _ _ _ _ _ _ _ _ _ _ Cert.KernelIdeal.Facts₀.shapeCasts_S128_S1x128).symm.trans
      (Cert.Gine.Kernel.result_value m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
